-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S384x128 : Shape := ⟨2, ![384, 128]⟩
abbrev S384 : Shape := ⟨1, ![384]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part1 {F : FTy → Type} [FloatOps F] (main_arg5 : FVec F S384x128 .f32) (main_arg6 : FVec F S384 .f32) (main_arg7 : FVec F S384 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S384x128 .f32 := Host.absf main_arg5
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S384 .f32 := Host.absf main_arg6
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S384 .f32 := Host.absf main_arg7
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  main_v33

def fn {F : FTy → Type} [FloatOps F] (main_arg0 : FVec F S8192x128 .f32) (main_arg1 : IVec S8192x8192 32) (main_arg2 : FVec F S128x128 .f32) (main_arg3 : FVec F S128 .f32) (main_arg4 : FVec F S384x128 .f32) (main_arg5 : FVec F S384x128 .f32) (main_arg6 : FVec F S384 .f32) (main_arg7 : FVec F S384 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S384x128 .f32 := Host.absf main_arg4
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg5 main_arg6 main_arg7 main_v13 main_v16
-- ==== Kernel.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S384x128 : Shape := ⟨2, ![384, 128]⟩
abbrev S384 : Shape := ⟨1, ![384]⟩
abbrev S2048x128 : Shape := ⟨2, ![2048, 128]⟩
abbrev S1x128 : Shape := ⟨2, ![1, 128]⟩
abbrev S1024x4096 : Shape := ⟨2, ![1024, 4096]⟩
abbrev S4096x128 : Shape := ⟨2, ![4096, 128]⟩
abbrev S1024x128 : Shape := ⟨2, ![1024, 128]⟩
abbrev S1024x1 : Shape := ⟨2, ![1024, 1]⟩
abbrev S1024 : Shape := ⟨1, ![1024]⟩
abbrev S128x384 : Shape := ⟨2, ![128, 384]⟩
abbrev S1024x384 : Shape := ⟨2, ![1024, 384]⟩
abbrev S1x384 : Shape := ⟨2, ![1, 384]⟩

abbrev nBuf : Space → Nat
  | .hbm => 10
  | .vmem => 20
  | .smem => 0
  | _ => 0

abbrev bufTy : (tb : Table) → Fin (tcTables nBuf tb) → BufTy
  | .hbm, ⟨0, _⟩ => ⟨S8192x128, .f32⟩
  | .hbm, ⟨1, _⟩ => ⟨S8192x8192, .i32⟩
  | .hbm, ⟨2, _⟩ => ⟨S128x128, .f32⟩
  | .hbm, ⟨3, _⟩ => ⟨S128, .f32⟩
  | .hbm, ⟨4, _⟩ => ⟨S384x128, .f32⟩
  | .hbm, ⟨5, _⟩ => ⟨S384x128, .f32⟩
  | .hbm, ⟨6, _⟩ => ⟨S384, .f32⟩
  | .hbm, ⟨7, _⟩ => ⟨S384, .f32⟩
  | .hbm, ⟨8, _⟩ => ⟨S8192x128, .bf16⟩
  | .hbm, ⟨9, _⟩ => ⟨S8192x128, .f32⟩
  | .local _ .vmem, ⟨0, _⟩ => ⟨S2048x128, .f32⟩
  | .local _ .vmem, ⟨1, _⟩ => ⟨S2048x128, .f32⟩
  | .local _ .vmem, ⟨2, _⟩ => ⟨S128x128, .f32⟩
  | .local _ .vmem, ⟨3, _⟩ => ⟨S128, .f32⟩
  | .local _ .vmem, ⟨4, _⟩ => ⟨S2048x128, .bf16⟩
  | .local _ .vmem, ⟨5, _⟩ => ⟨S2048x128, .bf16⟩
  | .local _ .vmem, ⟨6, _⟩ => ⟨S1024x4096, .i32⟩
  | .local _ .vmem, ⟨7, _⟩ => ⟨S1024x4096, .i32⟩
  | .local _ .vmem, ⟨8, _⟩ => ⟨S4096x128, .bf16⟩
  | .local _ .vmem, ⟨9, _⟩ => ⟨S4096x128, .bf16⟩
  | .local _ .vmem, ⟨10, _⟩ => ⟨S1024x128, .f32⟩
  | .local _ .vmem, ⟨11, _⟩ => ⟨S1024x128, .f32⟩
  | .local _ .vmem, ⟨12, _⟩ => ⟨S384x128, .f32⟩
  | .local _ .vmem, ⟨13, _⟩ => ⟨S384x128, .f32⟩
  | .local _ .vmem, ⟨14, _⟩ => ⟨S384, .f32⟩
  | .local _ .vmem, ⟨15, _⟩ => ⟨S384, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc1_scratch0 : Ref sig .tc := ⟨.vmem, 18, rfl⟩
abbrev cc1_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 2], ![false, false]⟩

def k1_cond2 (i : grid1.Coords) : BitVec 1 :=
  let arg1 : BitVec 32 := BitVec.ofNat 32 (i 1).val
  let c1_i32 : BitVec 32 := 1#32
  let v21 : BitVec 1 := Scalar.cmpi .eq arg1 c1_i32
  let v22 : BitVec 32 := Scalar.extui v21
  let c0_i32_13 : BitVec 32 := 0#32
  let v23 : BitVec 1 := Scalar.cmpi .ne v22 c0_i32_13
  v23

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S384x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S384x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S384 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1024x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  packedbf16_S2048x128_S2048x128_0_0 : (Rect.unit (s := S2048x128) ![0, 0] S2048x128.size inb_S2048x128_S2048x128_0_0).PackedRows (EltTy.packing .bf16)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x4096_S1024x4096_0_0 : ∀ a, (![0, 0] : Fin 2 → Nat) a + S1024x4096.size a ≤ S1024x4096.size a
  h_S1024x4096 : 0 < S1024x4096.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S1024x4096_S1024 : S1024x4096.Reduces [1] S1024
  shapeCasts_S1024_S1024x1 : S1024.ShapeCasts S1024x1
  broadcasts_S1024x1_S1024x128 : S1024x1.Broadcasts S1024x128
  inb_S384x128_S384x128_0_0 : ∀ a, (![0, 0] : Fin 2 → Nat) a + S384x128.size a ≤ S384x128.size a
  h_S384x128 : 0 < S384x128.numel
  transposes_S384x128_p1_0_S128x384 : S384x128.Transposes [1, 0] S128x384
  inb_S384_S384_0 : ∀ a, (![0] : Fin 1 → Nat) a + S384.size a ≤ S384.size a
  h_S384 : 0 < S384.numel
  shapeCasts_S384_S1x384 : S384.ShapeCasts S1x384
  broadcasts_S1x384_S1024x384 : S1x384.Broadcasts S1024x384
  slices_S1024x384_o0_0_S1024x128 : S1024x384.Slices ![0, 0] S1024x128
  slices_S1024x384_o0_128_S1024x128 : S1024x384.Slices ![0, 128] S1024x128
  slices_S1024x384_o0_256_S1024x128 : S1024x384.Slices ![0, 256] S1024x128
  dot_S2048x128_S128x128_S2048x128_1_0_0_1_n_n_wf : DotDims.WF S2048x128 S128x128 S2048x128 [1] [0] [0] [1] [] []
  dot_S1024x4096_S4096x128_S1024x128_1_0_0_1_n_n_wf : DotDims.WF S1024x4096 S4096x128 S1024x128 [1] [0] [0] [1] [] []
  dot_S1024x128_S128x384_S1024x384_1_0_0_1_n_n_wf : DotDims.WF S1024x128 S128x384 S1024x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x128.size a
  hwx0_0 : ∀ i : grid0.Coords, EltTy.bits .f32 = 32 ∨ (Rect.block (s := S8192x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S8192x128.size a
  hwx0_3 : ∀ i : grid0.Coords, EltTy.bits .bf16 = 32 ∨ (Rect.block (s := S8192x128) S2048x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S8192x8192.size a
  hwx1_0 : ∀ i : grid1.Coords, EltTy.bits .i32 = 32 ∨ (Rect.block (s := S8192x8192) S1024x4096.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S8192x128.size a
  hwx1_1 : ∀ i : grid1.Coords, EltTy.bits .bf16 = 32 ∨ (Rect.block (s := S8192x128) S4096x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .f32 = 32 ∨ (Rect.block (s := S8192x128) S1024x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S384x128.size a ≤ S384x128.size a
  hwx1_3 : ∀ i : grid1.Coords, EltTy.bits .f32 = 32 ∨ (Rect.block (s := S384x128) S384x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S384x128.size a ≤ S384x128.size a
  hwx1_4 : ∀ i : grid1.Coords, EltTy.bits .f32 = 32 ∨ (Rect.block (s := S384x128) S384x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S384.size a ≤ S384.size a
  hwx1_5 : ∀ i : grid1.Coords, EltTy.bits .f32 = 32 ∨ (Rect.block (s := S384) S384.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S384.size a ≤ S384.size a
  hwx1_6 : ∀ i : grid1.Coords, EltTy.bits .f32 = 32 ∨ (Rect.block (s := S384) S384.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x128.size a ≤ S8192x128.size a
  hwx1_7 : ∀ i : grid1.Coords, EltTy.bits .f32 = 32 ∨ (Rect.block (s := S8192x128) S1024x128.size (cc1_transform_7 i) (hinb1_7 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S1024x4096_S4096x128_S1024x128_1_0_0_1_n_n : DotDims S1024x4096 S4096x128 S1024x128 where
  lhsContracting := [1]
  rhsContracting := [0]
  lhsNonContracting := [0]
  rhsNonContracting := [1]
  lhsBatch := []
  rhsBatch := []
  wf := dot_S1024x4096_S4096x128_S1024x128_1_0_0_1_n_n_wf
def dot_S1024x128_S128x384_S1024x384_1_0_0_1_n_n : DotDims S1024x128 S128x384 S1024x384 where
  lhsContracting := [1]
  rhsContracting := [0]
  lhsNonContracting := [0]
  rhsNonContracting := [1]
  lhsBatch := []
  rhsBatch := []
  wf := dot_S1024x128_S128x384_S1024x384_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S384x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S384x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S384.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v1) S1024x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S384x128 : Shape := ⟨2, ![384, 128]⟩
abbrev S384 : Shape := ⟨1, ![384]⟩
abbrev S1x128 : Shape := ⟨2, ![1, 128]⟩
abbrev S_ : Shape := ⟨0, ![]⟩
abbrev S8192 : Shape := ⟨1, ![8192]⟩
abbrev S8192x1 : Shape := ⟨2, ![8192, 1]⟩
abbrev S128x384 : Shape := ⟨2, ![128, 384]⟩
abbrev S8192x384 : Shape := ⟨2, ![8192, 384]⟩
abbrev S1x384 : Shape := ⟨2, ![1, 384]⟩

abbrev nBuf : Space → Nat
  | .hbm => 70
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .i32⟩
  | .hbm, ⟨2, _⟩ => ⟨S128x128, .f32⟩
  | .hbm, ⟨3, _⟩ => ⟨S128, .f32⟩
  | .hbm, ⟨4, _⟩ => ⟨S384x128, .f32⟩
  | .hbm, ⟨5, _⟩ => ⟨S384x128, .f32⟩
  | .hbm, ⟨6, _⟩ => ⟨S384, .f32⟩
  | .hbm, ⟨7, _⟩ => ⟨S384, .f32⟩
  | .hbm, ⟨8, _⟩ => ⟨S128x128, .f32⟩
  | .hbm, ⟨9, _⟩ => ⟨S8192x128, .f32⟩
  | .hbm, ⟨10, _⟩ => ⟨S1x128, .f32⟩
  | .hbm, ⟨11, _⟩ => ⟨S8192x128, .f32⟩
  | .hbm, ⟨12, _⟩ => ⟨S8192x128, .f32⟩
  | .hbm, ⟨13, _⟩ => ⟨S_, .f32⟩
  | .hbm, ⟨14, _⟩ => ⟨S8192x128, .f32⟩
  | .hbm, ⟨15, _⟩ => ⟨S8192x128, .f32⟩
  | .hbm, ⟨16, _⟩ => ⟨S8192x8192, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x128, .f32⟩
  | .hbm, ⟨25, _⟩ => ⟨S8192x128, .f32⟩
  | .hbm, ⟨26, _⟩ => ⟨S8192x128, .f32⟩
  | .hbm, ⟨27, _⟩ => ⟨S128x384, .f32⟩
  | .hbm, ⟨28, _⟩ => ⟨S8192x384, .f32⟩
  | .hbm, ⟨29, _⟩ => ⟨S1x384, .f32⟩
  | .hbm, ⟨30, _⟩ => ⟨S8192x384, .f32⟩
  | .hbm, ⟨31, _⟩ => ⟨S8192x384, .f32⟩
  | .hbm, ⟨32, _⟩ => ⟨S128x384, .f32⟩
  | .hbm, ⟨33, _⟩ => ⟨S8192x384, .f32⟩
  | .hbm, ⟨34, _⟩ => ⟨S1x384, .f32⟩
  | .hbm, ⟨35, _⟩ => ⟨S8192x384, .f32⟩
  | .hbm, ⟨36, _⟩ => ⟨S8192x384, .f32⟩
  | .hbm, ⟨37, _⟩ => ⟨S8192x128, .f32⟩
  | .hbm, ⟨38, _⟩ => ⟨S8192x128, .f32⟩
  | .hbm, ⟨39, _⟩ => ⟨S8192x128, .f32⟩
  | .hbm, ⟨40, _⟩ => ⟨S8192x128, .f32⟩
  | .hbm, ⟨41, _⟩ => ⟨S8192x128, .f32⟩
  | .hbm, ⟨42, _⟩ => ⟨S8192x128, .f32⟩
  | .hbm, ⟨43, _⟩ => ⟨S8192x128, .f32⟩
  | .hbm, ⟨44, _⟩ => ⟨S8192x128, .f32⟩
  | .hbm, ⟨45, _⟩ => ⟨S8192x128, .f32⟩
  | .hbm, ⟨46, _⟩ => ⟨S_, .f32⟩
  | .hbm, ⟨47, _⟩ => ⟨S8192x128, .f32⟩
  | .hbm, ⟨48, _⟩ => ⟨S8192x128, .f32⟩
  | .hbm, ⟨49, _⟩ => ⟨S_, .f32⟩
  | .hbm, ⟨50, _⟩ => ⟨S8192x128, .f32⟩
  | .hbm, ⟨51, _⟩ => ⟨S8192x128, .f32⟩
  | .hbm, ⟨52, _⟩ => ⟨S8192x128, .f32⟩
  | .hbm, ⟨53, _⟩ => ⟨S8192x128, .f32⟩
  | .hbm, ⟨54, _⟩ => ⟨S8192x128, .f32⟩
  | .hbm, ⟨55, _⟩ => ⟨S_, .f32⟩
  | .hbm, ⟨56, _⟩ => ⟨S8192x128, .f32⟩
  | .hbm, ⟨57, _⟩ => ⟨S8192x128, .f32⟩
  | .hbm, ⟨58, _⟩ => ⟨S_, .f32⟩
  | .hbm, ⟨59, _⟩ => ⟨S8192x128, .f32⟩
  | .hbm, ⟨60, _⟩ => ⟨S8192x128, .f32⟩
  | .hbm, ⟨61, _⟩ => ⟨S8192x128, .f32⟩
  | .hbm, ⟨62, _⟩ => ⟨S8192x128, .f32⟩
  | .hbm, ⟨63, _⟩ => ⟨S8192x128, .f32⟩
  | .hbm, ⟨64, _⟩ => ⟨S_, .f32⟩
  | .hbm, ⟨65, _⟩ => ⟨S8192x128, .f32⟩
  | .hbm, ⟨66, _⟩ => ⟨S8192x128, .f32⟩
  | .hbm, ⟨67, _⟩ => ⟨S8192x128, .f32⟩
  | .hbm, ⟨68, _⟩ => ⟨S8192x128, .f32⟩
  | .hbm, ⟨69, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_call1_v0 : Ref sig .tc := ⟨.hbm, 21, rfl⟩
abbrev main_call1_v1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_1 : Ref sig .tc := ⟨.hbm, 46, rfl⟩
abbrev main_v32 : Ref sig .tc := ⟨.hbm, 47, rfl⟩
abbrev main_v33 : Ref sig .tc := ⟨.hbm, 48, rfl⟩
abbrev main_cst_2 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_3 : Ref sig .tc := ⟨.hbm, 55, rfl⟩
abbrev main_v39 : Ref sig .tc := ⟨.hbm, 56, rfl⟩
abbrev main_v40 : Ref sig .tc := ⟨.hbm, 57, rfl⟩
abbrev main_cst_4 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_5 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S384x128_S128x384_1_0 : S384x128.Transposes [1, 0] S128x384
  bcast_S384_S1x384_1 : S384.BroadcastsInDim S1x384 (![1] : Fin 1 → Fin S1x384.rank)
  bcast_S1x384_S8192x384_0_1 : S1x384.BroadcastsInDim S8192x384 (![0, 1] : Fin 2 → Fin S8192x384.rank)
  slices_S8192x384_S8192x128_0_0 : S8192x384.Slices ![0, 0] S8192x128
  slices_S8192x384_S8192x128_0_128 : S8192x384.Slices ![0, 128] S8192x128
  slices_S8192x384_S8192x128_0_256 : S8192x384.Slices ![0, 256] S8192x128
  dot_S8192x128_S128x128_S8192x128_1_0_0_1_n_n_wf : DotDims.WF S8192x128 S128x128 S8192x128 [1] [0] [0] [1] [] []
  dot_S8192x8192_S8192x128_S8192x128_1_0_0_1_n_n_wf : DotDims.WF S8192x8192 S8192x128 S8192x128 [1] [0] [0] [1] [] []
  dot_S8192x128_S128x384_S8192x384_1_0_0_1_n_n_wf : DotDims.WF S8192x128 S128x384 S8192x384 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x384_S8192x384_1_0_0_1_n_n : DotDims S8192x128 S128x384 S8192x384 where
  lhsContracting := [1]
  rhsContracting := [0]
  lhsNonContracting := [0]
  rhsNonContracting := [1]
  lhsBatch := []
  rhsBatch := []
  wf := dot_S8192x128_S128x384_S8192x384_1_0_0_1_n_n_wf

class Facts : Prop extends Facts₀ where

variable [Facts]
-- ==== Proof.K.Region0.lean ====
/-
  The message kernel's half of the frame: a grid of four points, each reading one block of 2048 rows of the node
  features together with the whole weight matrix and bias, and writing the block of 2048 rows of messages. The body
  loads its three inputs whole and stores its one result whole, so after the body the output's staging buffer is one
  function of the three input blocks; the inputs' buffers hold their blocks at every point.
-/
import proofs.«133597_j88648124989935_1_alg».proof.Proof.Gen.Kernel.Launch
import proofs.«133597_j88648124989935_1_alg».proof.Proof.Gen.Kernel.Skeleton
import proofs.«133597_j88648124989935_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2048x128 := Rect.unit (s := S2048x128) ![0, 0] S2048x128.size inb_S2048x128_S2048x128_0_0
abbrev r0_1 : Rect S128x128 := Rect.unit (s := S128x128) ![0, 0] S128x128.size inb_S128x128_S128x128_0_0
abbrev r0_2 : Rect S128 := Rect.unit (s := S128) ![0] S128.size inb_S128_S128_0

/-- The output's staging buffer after the body, from the three input blocks: its one whole store. -/
def out0_3 (x0 : Vec F S2048x128 .f32) (x1 : Vec F S128x128 .f32) (x2 : Vec F S128 .f32) : Vec F S2048x128 .bf16 :=
  View.canon [⟨r0_0, k0_pay1 (View.ld x0 r0_0) (View.ld x1 r0_1) (View.ld x2 r0_2)⟩]

/-- The one store covers the buffer. -/
theorem cover0_3 (p0 : Vec F S2048x128 .bf16) (y : S2048x128.Idx) :
    ∃ pc ∈ ([⟨r0_0, p0⟩] : List (View.Piece (Elt F) S2048x128 .bf16)), y ∈ pc.1.set :=
  View.cover_of_tiled [⟨r0_0, p0⟩] S2048x128.size (by rfl) y

set_option maxHeartbeats 1000000 in
/-- The body on whole staging memrefs, the inputs' at read contents and the output's at anything, runs to the
    continuation holding the inputs' as they were and the output's at out0_3 of the inputs'. -/
theorem sound_kernel0 (c : Dev nD) (E : Set ℕ) (i : grid0.Coords) (arg1 : Memref sig .tc .vmem S2048x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2048x128 .bf16) (harg4 : arg4.IsWhole)
    (x0 : Vec F S2048x128 .f32) (x1 : Vec F S128x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__msg_kernel i arg1 harg1 arg2 harg2 arg3 harg3 arg4 harg4) K := by
  simp only [cc0__msg_kernel_eq_skeleton]; unfold cc0__msg_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the message pipeline on core c: the arrays as the region finds them; after the body at point t
    each input's buffer at its block and the output's at out0_3 of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the kernel's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.K.Region1Base.lean ====
/-
  The aggregation kernel's half of the frame, first part: what its two control cases share. The grid is 8 row tiles by
  2 reduction tiles; the point's second coordinate k decides the case: at k = 0 the two accumulators (the weighted sum
  of messages and the degree) are zeroed before the tile's contribution is added, at k = 1 the contribution is added
  to what the point before left and the recurrent unit's update of the row tile is stored. The output window is idle
  at the points with k = 0 and written back at those with k = 1.
-/
import proofs.«133597_j88648124989935_1_alg».proof.Proof.Gen.Kernel.Launch
import proofs.«133597_j88648124989935_1_alg».proof.Proof.Gen.Kernel.Skeleton
import proofs.«133597_j88648124989935_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

end Blocks

/-- The body's first branch condition, from the grid coordinates: the reduction coordinate is zero. -/
abbrev cond1_0 (i : grid1.Coords) : Prop := (Scalar.cmpi .ne (Scalar.extui (Scalar.cmpi .eq (BitVec.ofNat 32 (i 1).val) 0#32)) 0#32) = 1#1
/-- It holds at the even points. -/
theorem hcond1_0 : ∀ t : Fin cfg1.N, cond1_0 (grid1.coords t) ↔ t.val % 2 = 0 :=
  (by decide +kernel : ∀ t : Fin grid1.N, cond1_0 (grid1.coords t) ↔ t.val % 2 = 0)
/-- The body's second branch condition: the reduction coordinate is the last. -/
abbrev cond1_1 (i : grid1.Coords) : Prop := k1_cond2 i = 1#1
/-- It holds at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
/-- At the even points the output window is idle and not written back; at the odd points it is live. -/
theorem idleAt1_7_A : ∀ t : Fin cfg1.N, cond1_0 (grid1.coords t) → ¬cond1_1 (grid1.coords t) → cfg1.idle 7 (grid1.coords t) = true := by decide +kernel
theorem noFlush1_7_A : ∀ t : Fin cfg1.N, cond1_0 (grid1.coords t) → ¬cond1_1 (grid1.coords t) → (cfg1.win 7).flush t = false := by decide +kernel
theorem liveAt1_7_C : ∀ t : Fin cfg1.N, ¬cond1_0 (grid1.coords t) → cond1_1 (grid1.coords t) → cfg1.idle 7 (grid1.coords t) = false := by decide +kernel

/-- One staging buffer of the output window, through which its contents are stated. -/
abbrev VO1_7 : View sig .tc .vmem S1024x128 .f32 := (Memref.whole cc1_stg7_0 : Memref sig .tc .vmem S1024x128 .f32).view
abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
abbrev ms1_3 (t : Fin cfg1.N) := win1_3.stage (cfg1.slots t 3)
abbrev hs1_3 (t : Fin cfg1.N) : (ms1_3 t).IsWhole := hstage1_3 ((cfg1.slots t 3).cast nbuf1_3)
abbrev ms1_4 (t : Fin cfg1.N) := win1_4.stage (cfg1.slots t 4)
abbrev hs1_4 (t : Fin cfg1.N) : (ms1_4 t).IsWhole := hstage1_4 ((cfg1.slots t 4).cast nbuf1_4)
abbrev ms1_5 (t : Fin cfg1.N) := win1_5.stage (cfg1.slots t 5)
abbrev hs1_5 (t : Fin cfg1.N) : (ms1_5 t).IsWhole := hstage1_5 ((cfg1.slots t 5).cast nbuf1_5)
abbrev ms1_6 (t : Fin cfg1.N) := win1_6.stage (cfg1.slots t 6)
abbrev hs1_6 (t : Fin cfg1.N) : (ms1_6 t).IsWhole := hstage1_6 ((cfg1.slots t 6).cast nbuf1_6)
abbrev ms1_7 (t : Fin cfg1.N) := win1_7.stage (cfg1.slots t 7)
abbrev hs1_7 (t : Fin cfg1.N) : (ms1_7 t).IsWhole := hstage1_7 ((cfg1.slots t 7).cast nbuf1_7)
/-- The two accumulators: whole scoped buffers of the kernel's own, carried between points. -/
abbrev scM1_0 : Memref sig .tc .vmem S1024x128 .f32 := Memref.whole cc1_scratch0
abbrev scM1_1 : Memref sig .tc .vmem S1024x1 .f32 := Memref.whole cc1_scratch1
abbrev VS1_0 : View sig .tc .vmem S1024x128 .f32 := scM1_0.view
abbrev VS1_1 : View sig .tc .vmem S1024x1 .f32 := scM1_1.view

/-- A scoped buffer the kernel never touches, whole at some contents. -/
abbrev anyBuf (c : Dev nD) (r : Ref sig .tc) : sProp 𝕄 :=
  iprop(∃ f : Buf (Elt F) ((c : Thread nD τ).loc r), ((c : Thread nD τ).loc r) ↦{fullShare} f)

/-- The class invariant with the two accumulators as memrefs owned at some contents: the other pipeline's six staging
    buffers at anything, the accumulators at anything, the generator register at some state. -/
theorem PhiA1_eq (c : Dev nD) :
    (Pipeline.ΦA spec1 c : sProp 𝕄)
      = iprop(iprop(anyBuf c cc0_stg0_0 ∗ anyBuf c cc0_stg0_1 ∗ anyBuf c cc0_stg1_0 ∗ anyBuf c cc0_stg2_0 ∗ anyBuf c cc0_stg3_0 ∗ anyBuf c cc0_stg3_1
          ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Cert.Kernel.Frm

end
-- ==== Proof.K.Region1RunA.lean ====
/-
  The aggregation kernel's whole body run where the reduction coordinate is zero (the accumulators are zeroed, the tile's contribution added, the output left untouched): the stores each buffer ends with are found by running the body
  symbolically on whole staging memrefs.
-/
import proofs.«133597_j88648124989935_1_alg».proof.Proof.K.Region1Base

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case k = 0: the pieces the accumulators end with, with the proof that on whole memrefs — the inputs at their
    contents, the idle output at contents handed back untouched, the accumulators at anything — the body runs to the
    continuation holding the inputs and the output as they were and each accumulator with its pieces written. -/
noncomputable def kernelRun1_A (c : Dev nD) (i : grid1.Coords) (arg2 : Memref sig .tc .vmem S1024x4096 .i32) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S384x128 .f32) (harg5 : arg5.IsWhole) (arg6 : Memref sig .tc .vmem S384x128 .f32) (harg6 : arg6.IsWhole) (arg7 : Memref sig .tc .vmem S384 .f32) (harg7 : arg7.IsWhole) (arg8 : Memref sig .tc .vmem S384 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x1 .f32) (harg11 : arg11.IsWhole) (hc0 : cond1_0 i) (hc1 : ¬cond1_1 i)
    (x0 : Vec F S1024x4096 .i32) (x1 : Vec F S4096x128 .bf16) (x2 : Vec F S1024x128 .f32) (x3 : Vec F S384x128 .f32) (x4 : Vec F S384x128 .f32) (x5 : Vec F S384 .f32) (x6 : Vec F S384 .f32) :
    Σ' (L7 : List (View.Piece (Elt F) S1024x128 .f32)) (LS0 : List (View.Piece (Elt F) S1024x128 .f32)), { LS1 : List (View.Piece (Elt F) S1024x1 .f32) //
      ∀ (xi7 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__gnn_kernel i arg2 harg2 arg3 harg3 arg4 harg4 arg5 harg5 arg6 harg6 arg7 harg7 arg8 harg8 arg9 harg9 arg10 harg10 arg11 harg11) K } := by
  refine ⟨[], ?_, ?_, fun xi7 E K => ?run⟩
  case run =>
    simp only [cc1__gnn_kernel_eq_skeleton]; unfold cc1__gnn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.Kernel.Frm

end
-- ==== Proof.K.Region1RunC.lean ====
/-
  The aggregation kernel's whole body run where the reduction coordinate is the last (the tile's contribution added to what the point before left, then the recurrent unit's update stored): the stores each buffer ends with are found by running the body
  symbolically on whole staging memrefs.
-/
import proofs.«133597_j88648124989935_1_alg».proof.Proof.K.Region1Base

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case k = 1: the pieces the output and the accumulators end with, with the proof that on whole memrefs — the
    inputs at their contents, the output at anything, the accumulators at what the point before left — the body runs
    to the continuation holding the inputs as they were and each of the three buffers with its pieces written. -/
noncomputable def kernelRun1_C (c : Dev nD) (i : grid1.Coords) (arg2 : Memref sig .tc .vmem S1024x4096 .i32) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S384x128 .f32) (harg5 : arg5.IsWhole) (arg6 : Memref sig .tc .vmem S384x128 .f32) (harg6 : arg6.IsWhole) (arg7 : Memref sig .tc .vmem S384 .f32) (harg7 : arg7.IsWhole) (arg8 : Memref sig .tc .vmem S384 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x1 .f32) (harg11 : arg11.IsWhole) (hc0 : ¬cond1_0 i) (hc1 : cond1_1 i)
    (x0 : Vec F S1024x4096 .i32) (x1 : Vec F S4096x128 .bf16) (x2 : Vec F S1024x128 .f32) (x3 : Vec F S384x128 .f32) (x4 : Vec F S384x128 .f32) (x5 : Vec F S384 .f32) (x6 : Vec F S384 .f32) (xs0 : Vec F S1024x128 .f32) (xs1 : Vec F S1024x1 .f32) :
    Σ' (L7 : List (View.Piece (Elt F) S1024x128 .f32)) (LS0 : List (View.Piece (Elt F) S1024x128 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__gnn_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc1__gnn_kernel_eq_skeleton]; unfold cc1__gnn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]; · iexists _; iexact HS0
    iexists _; iexact HS1

end Cert.Kernel.Frm

end
-- ==== Proof.K.Region1.lean ====
/-
  The aggregation kernel's half of the frame, last part: what the output and the two accumulators hold after each
  point, the invariant that carries the accumulators from a point to the next, the proof data and the body obligation.
  At an even point (reduction coordinate 0) the accumulators end at the zeroed value plus the tile's contribution; at
  an odd point they end at the previous point's value plus the tile's contribution, and the output block at the
  recurrent unit's update computed from them.
-/
import proofs.«133597_j88648124989935_1_alg».proof.Proof.K.Region1RunA
import proofs.«133597_j88648124989935_1_alg».proof.Proof.K.Region1RunC

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What case A leaves in the output's staging buffer: its pieces read back over junk (none: a placeholder nothing consults, the window being idle there). -/
def out1_A_7 (c : Dev nD) (i : grid1.Coords) (arg2 : Memref sig .tc .vmem S1024x4096 .i32) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S384x128 .f32) (harg5 : arg5.IsWhole) (arg6 : Memref sig .tc .vmem S384x128 .f32) (harg6 : arg6.IsWhole) (arg7 : Memref sig .tc .vmem S384 .f32) (harg7 : arg7.IsWhole) (arg8 : Memref sig .tc .vmem S384 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x1 .f32) (harg11 : arg11.IsWhole) (hc0 : cond1_0 i) (hc1 : ¬cond1_1 i)
    (x0 : Vec F S1024x4096 .i32) (x1 : Vec F S4096x128 .bf16) (x2 : Vec F S1024x128 .f32) (x3 : Vec F S384x128 .f32) (x4 : Vec F S384x128 .f32) (x5 : Vec F S384 .f32) (x6 : Vec F S384 .f32) : Vec F S1024x128 .f32 :=
  VO1_7.read (Elt F) (VO1_7.writes (Elt F) VO1_7.junk (kernelRun1_A c i arg2 harg2 arg3 harg3 arg4 harg4 arg5 harg5 arg6 harg6 arg7 harg7 arg8 harg8 arg9 harg9 arg10 harg10 arg11 harg11 hc0 hc1 x0 x1 x2 x3 x4 x5 x6).1)

/-- Case A's stores into the first accumulator cover it. -/
theorem scover1_A_0 (c : Dev nD) (i : grid1.Coords) (arg2 : Memref sig .tc .vmem S1024x4096 .i32) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S384x128 .f32) (harg5 : arg5.IsWhole) (arg6 : Memref sig .tc .vmem S384x128 .f32) (harg6 : arg6.IsWhole) (arg7 : Memref sig .tc .vmem S384 .f32) (harg7 : arg7.IsWhole) (arg8 : Memref sig .tc .vmem S384 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x1 .f32) (harg11 : arg11.IsWhole) (hc0 : cond1_0 i) (hc1 : ¬cond1_1 i)
    (x0 : Vec F S1024x4096 .i32) (x1 : Vec F S4096x128 .bf16) (x2 : Vec F S1024x128 .f32) (x3 : Vec F S384x128 .f32) (x4 : Vec F S384x128 .f32) (x5 : Vec F S384 .f32) (x6 : Vec F S384 .f32) (y : S1024x128.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5 x6).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5 x6).2.1 S1024x128.size (by sl_kernel_rfl) y

/-- What case A leaves in the first accumulator. -/
def sout1_A_0 (c : Dev nD) (i : grid1.Coords) (arg2 : Memref sig .tc .vmem S1024x4096 .i32) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S384x128 .f32) (harg5 : arg5.IsWhole) (arg6 : Memref sig .tc .vmem S384x128 .f32) (harg6 : arg6.IsWhole) (arg7 : Memref sig .tc .vmem S384 .f32) (harg7 : arg7.IsWhole) (arg8 : Memref sig .tc .vmem S384 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x1 .f32) (harg11 : arg11.IsWhole) (hc0 : cond1_0 i) (hc1 : ¬cond1_1 i)
    (x0 : Vec F S1024x4096 .i32) (x1 : Vec F S4096x128 .bf16) (x2 : Vec F S1024x128 .f32) (x3 : Vec F S384x128 .f32) (x4 : Vec F S384x128 .f32) (x5 : Vec F S384 .f32) (x6 : Vec F S384 .f32) : Vec F S1024x128 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 hc1 x0 x1 x2 x3 x4 x5 x6).2.1)

/-- Case A's stores into the second accumulator cover it. -/
theorem scover1_A_1 (c : Dev nD) (i : grid1.Coords) (arg2 : Memref sig .tc .vmem S1024x4096 .i32) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S384x128 .f32) (harg5 : arg5.IsWhole) (arg6 : Memref sig .tc .vmem S384x128 .f32) (harg6 : arg6.IsWhole) (arg7 : Memref sig .tc .vmem S384 .f32) (harg7 : arg7.IsWhole) (arg8 : Memref sig .tc .vmem S384 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x1 .f32) (harg11 : arg11.IsWhole) (hc0 : cond1_0 i) (hc1 : ¬cond1_1 i)
    (x0 : Vec F S1024x4096 .i32) (x1 : Vec F S4096x128 .bf16) (x2 : Vec F S1024x128 .f32) (x3 : Vec F S384x128 .f32) (x4 : Vec F S384x128 .f32) (x5 : Vec F S384 .f32) (x6 : Vec F S384 .f32) (y : S1024x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5 x6).2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5 x6).2.2.1 S1024x1.size (by sl_kernel_rfl) y

/-- What case A leaves in the second accumulator. -/
def sout1_A_1 (c : Dev nD) (i : grid1.Coords) (arg2 : Memref sig .tc .vmem S1024x4096 .i32) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S384x128 .f32) (harg5 : arg5.IsWhole) (arg6 : Memref sig .tc .vmem S384x128 .f32) (harg6 : arg6.IsWhole) (arg7 : Memref sig .tc .vmem S384 .f32) (harg7 : arg7.IsWhole) (arg8 : Memref sig .tc .vmem S384 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x1 .f32) (harg11 : arg11.IsWhole) (hc0 : cond1_0 i) (hc1 : ¬cond1_1 i)
    (x0 : Vec F S1024x4096 .i32) (x1 : Vec F S4096x128 .bf16) (x2 : Vec F S1024x128 .f32) (x3 : Vec F S384x128 .f32) (x4 : Vec F S384x128 .f32) (x5 : Vec F S384 .f32) (x6 : Vec F S384 .f32) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 hc0 hc1 x0 x1 x2 x3 x4 x5 x6).2.2.1)

/-- What case C leaves in the output's staging buffer: its pieces read back over junk. -/
def out1_C_7 (c : Dev nD) (i : grid1.Coords) (arg2 : Memref sig .tc .vmem S1024x4096 .i32) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S384x128 .f32) (harg5 : arg5.IsWhole) (arg6 : Memref sig .tc .vmem S384x128 .f32) (harg6 : arg6.IsWhole) (arg7 : Memref sig .tc .vmem S384 .f32) (harg7 : arg7.IsWhole) (arg8 : Memref sig .tc .vmem S384 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x1 .f32) (harg11 : arg11.IsWhole) (hc0 : ¬cond1_0 i) (hc1 : cond1_1 i)
    (x0 : Vec F S1024x4096 .i32) (x1 : Vec F S4096x128 .bf16) (x2 : Vec F S1024x128 .f32) (x3 : Vec F S384x128 .f32) (x4 : Vec F S384x128 .f32) (x5 : Vec F S384 .f32) (x6 : Vec F S384 .f32) (xs0 : Vec F S1024x128 .f32) (xs1 : Vec F S1024x1 .f32) : Vec F S1024x128 .f32 :=
  VO1_7.read (Elt F) (VO1_7.writes (Elt F) VO1_7.junk (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).1)

/-- Case C's one store into the output covers its block. -/
theorem cover1_C_7 (c : Dev nD) (i : grid1.Coords) (arg2 : Memref sig .tc .vmem S1024x4096 .i32) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S384x128 .f32) (harg5 : arg5.IsWhole) (arg6 : Memref sig .tc .vmem S384x128 .f32) (harg6 : arg6.IsWhole) (arg7 : Memref sig .tc .vmem S384 .f32) (harg7 : arg7.IsWhole) (arg8 : Memref sig .tc .vmem S384 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x1 .f32) (harg11 : arg11.IsWhole) (hc0 : ¬cond1_0 i) (hc1 : cond1_1 i)
    (x0 : Vec F S1024x4096 .i32) (x1 : Vec F S4096x128 .bf16) (x2 : Vec F S1024x128 .f32) (x3 : Vec F S384x128 .f32) (x4 : Vec F S384x128 .f32) (x5 : Vec F S384 .f32) (x6 : Vec F S384 .f32) (xs0 : Vec F S1024x128 .f32) (xs1 : Vec F S1024x1 .f32) (y : S1024x128.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).1 S1024x128.size (by sl_kernel_rfl) y

/-- Case C's stores into the first accumulator cover it. -/
theorem scover1_C_0 (c : Dev nD) (i : grid1.Coords) (arg2 : Memref sig .tc .vmem S1024x4096 .i32) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S384x128 .f32) (harg5 : arg5.IsWhole) (arg6 : Memref sig .tc .vmem S384x128 .f32) (harg6 : arg6.IsWhole) (arg7 : Memref sig .tc .vmem S384 .f32) (harg7 : arg7.IsWhole) (arg8 : Memref sig .tc .vmem S384 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x1 .f32) (harg11 : arg11.IsWhole) (hc0 : ¬cond1_0 i) (hc1 : cond1_1 i)
    (x0 : Vec F S1024x4096 .i32) (x1 : Vec F S4096x128 .bf16) (x2 : Vec F S1024x128 .f32) (x3 : Vec F S384x128 .f32) (x4 : Vec F S384x128 .f32) (x5 : Vec F S384 .f32) (x6 : Vec F S384 .f32) (xs0 : Vec F S1024x128 .f32) (xs1 : Vec F S1024x1 .f32) (y : S1024x128.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).2.1 S1024x128.size (by sl_kernel_rfl) y

/-- What case C leaves in the first accumulator. -/
def sout1_C_0 (c : Dev nD) (i : grid1.Coords) (arg2 : Memref sig .tc .vmem S1024x4096 .i32) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S384x128 .f32) (harg5 : arg5.IsWhole) (arg6 : Memref sig .tc .vmem S384x128 .f32) (harg6 : arg6.IsWhole) (arg7 : Memref sig .tc .vmem S384 .f32) (harg7 : arg7.IsWhole) (arg8 : Memref sig .tc .vmem S384 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x1 .f32) (harg11 : arg11.IsWhole) (hc0 : ¬cond1_0 i) (hc1 : cond1_1 i)
    (x0 : Vec F S1024x4096 .i32) (x1 : Vec F S4096x128 .bf16) (x2 : Vec F S1024x128 .f32) (x3 : Vec F S384x128 .f32) (x4 : Vec F S384x128 .f32) (x5 : Vec F S384 .f32) (x6 : Vec F S384 .f32) (xs0 : Vec F S1024x128 .f32) (xs1 : Vec F S1024x1 .f32) : Vec F S1024x128 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).2.1)

/-- Case C's stores into the second accumulator cover it. -/
theorem scover1_C_1 (c : Dev nD) (i : grid1.Coords) (arg2 : Memref sig .tc .vmem S1024x4096 .i32) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S384x128 .f32) (harg5 : arg5.IsWhole) (arg6 : Memref sig .tc .vmem S384x128 .f32) (harg6 : arg6.IsWhole) (arg7 : Memref sig .tc .vmem S384 .f32) (harg7 : arg7.IsWhole) (arg8 : Memref sig .tc .vmem S384 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x1 .f32) (harg11 : arg11.IsWhole) (hc0 : ¬cond1_0 i) (hc1 : cond1_1 i)
    (x0 : Vec F S1024x4096 .i32) (x1 : Vec F S4096x128 .bf16) (x2 : Vec F S1024x128 .f32) (x3 : Vec F S384x128 .f32) (x4 : Vec F S384x128 .f32) (x5 : Vec F S384 .f32) (x6 : Vec F S384 .f32) (xs0 : Vec F S1024x128 .f32) (xs1 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).2.2.1 S1024x1.size (by sl_kernel_rfl) y

/-- What case C leaves in the second accumulator. -/
def sout1_C_1 (c : Dev nD) (i : grid1.Coords) (arg2 : Memref sig .tc .vmem S1024x4096 .i32) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S384x128 .f32) (harg5 : arg5.IsWhole) (arg6 : Memref sig .tc .vmem S384x128 .f32) (harg6 : arg6.IsWhole) (arg7 : Memref sig .tc .vmem S384 .f32) (harg7 : arg7.IsWhole) (arg8 : Memref sig .tc .vmem S384 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x1 .f32) (harg11 : arg11.IsWhole) (hc0 : ¬cond1_0 i) (hc1 : cond1_1 i)
    (x0 : Vec F S1024x4096 .i32) (x1 : Vec F S4096x128 .bf16) (x2 : Vec F S1024x128 .f32) (x3 : Vec F S384x128 .f32) (x4 : Vec F S384x128 .f32) (x5 : Vec F S384 .f32) (x6 : Vec F S384 .f32) (xs0 : Vec F S1024x128 .f32) (xs1 : Vec F S1024x1 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).2.2.1)

variable (V : (c : Dev nD) → (b : Ref sig .tc) → Buf (Elt F) ((c : Thread nD τ).loc b))

/-- The accumulation: what the output's staging buffer and the two accumulators hold after the body at position n
    (the output, then the accumulators): the case the parity of n selects, run at the point's memrefs and input
    blocks; at an odd point over what the point before left in the accumulators. -/
def outsAt1 (c : Dev nD) : (n : ℕ) → n < cfg1.N → Vec F S1024x128 .f32 × Vec F S1024x128 .f32 × Vec F S1024x1 .f32
  | 0, hn => (out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩))
  | n + 1, hn =>
    if h0 : (n + 1) % 2 = 0 then
      (out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩))
    else
      (out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) ((hcond1_1 ⟨n + 1, hn⟩).mpr (by (try dsimp only); omega)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) ((hcond1_1 ⟨n + 1, hn⟩).mpr (by (try dsimp only); omega)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) ((hcond1_1 ⟨n + 1, hn⟩).mpr (by (try dsimp only); omega)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2)

/-- The accumulation at an even point: case A's contents. -/
theorem outsAt1_A (c : Dev nD) (t : Fin cfg1.N) (h0 : t.val % 2 = 0) (h1 : ¬t.val % 2 = 1) :
    outsAt1 V c t.val t.isLt = (out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)) := by
  obtain ⟨n, hn⟩ := t
  cases n with
  | zero => exact rfl
  | succ n => exact (dif_pos h0).trans rfl

/-- The accumulation at an odd point: case C's contents, over what the point before left. -/
theorem outsAt1_C (c : Dev nD) (t : Fin cfg1.N) (h0 : ¬t.val % 2 = 0) (h1 : t.val % 2 = 1) :
    outsAt1 V c t.val t.isLt = (out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position n: before the first point the class's (every scoped buffer outside the
    windows at anything); afterwards the same with each accumulator at what the point before left in it. -/
def PhiS1 (c : Dev nD) : (n : ℕ) → n ≤ cfg1.N → sProp 𝕄
  | 0, _ => Pipeline.ΦA spec1 c
  | n + 1, hn => iprop(iprop(anyBuf c cc0_stg0_0 ∗ anyBuf c cc0_stg0_1 ∗ anyBuf c cc0_stg1_0 ∗ anyBuf c cc0_stg2_0 ∗ anyBuf c cc0_stg3_0 ∗ anyBuf c cc0_stg3_1
      ∗ owns (c : Thread nD τ) scM1_0 fullShare ((outsAt1 V c n hn).2.1) ∗ owns (c : Thread nD τ) scM1_1 fullShare ((outsAt1 V c n hn).2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(anyBuf c cc0_stg0_0 ∗ anyBuf c cc0_stg0_1 ∗ anyBuf c cc0_stg1_0 ∗ anyBuf c cc0_stg2_0 ∗ anyBuf c cc0_stg3_0 ∗ anyBuf c cc0_stg3_1
      ∗ owns (c : Thread nD τ) scM1_0 fullShare ((outsAt1 V c n hn).2.1) ∗ owns (c : Thread nD τ) scM1_1 fullShare ((outsAt1 V c n hn).2.2)) ∗ (∃ r, prngReg c r)) := rfl

theorem PhiS1_pos (c : Dev nD) (n : ℕ) (h : n ≤ cfg1.N) (hz : n ≠ 0) :
    PhiS1 V c n h = iprop(iprop(anyBuf c cc0_stg0_0 ∗ anyBuf c cc0_stg0_1 ∗ anyBuf c cc0_stg1_0 ∗ anyBuf c cc0_stg2_0 ∗ anyBuf c cc0_stg3_0 ∗ anyBuf c cc0_stg3_1
      ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

/-- The proof data of the aggregation pipeline on core c: the arrays as the region finds them; after the body at
    point t each input's buffer at its block and the output's at the accumulation's first component; the invariant
    PhiS1; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point: the inputs' memrefs hold their blocks; the parity of the point says which case it is in;
    the invariant hands the body the accumulators at what the point before left (at anything at the first point) and
    takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  by_cases h0 : t.val % 2 = 0
  · have h1 : ¬t.val % 2 = 1 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [show (dat1 V c).leavesExact 5 t = owns (c : Thread nD τ) (ms1_5 t) fullShare ((dat1 V c).after 5 t) from by
      unfold Dat.leavesExact; rw [liveAt1_5 t], after1_5]
    rw [show (dat1 V c).leavesExact 6 t = owns (c : Thread nD τ) (ms1_6 t) fullShare ((dat1 V c).after 6 t) from by
      unfold Dat.leavesExact; rw [liveAt1_6 t], after1_6]
    rw [Dat.leavesExact_idle (dat1 V c) 7 t (idleAt1_7_A t ((hcond1_0 t).mpr h0) (fun h => h1 ((hcond1_1 t).mp h))) (noFlush1_7_A t ((hcond1_0 t).mpr h0) (fun h => h1 ((hcond1_1 t).mp h)))]
    rw [outsAt1_A V c t h0 h1]
    unfold sout1_A_0 sout1_A_1; (try dsimp only)
    by_cases hz : t.val = 0
    · rw [PhiS1_castSucc V c t, PhiS1_zero V c _ _ hz, PhiA1_eq]
      iintro ⟨⟨⟨Hj0, Hj1, Hj2, Hj3, Hj4, Hj5, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [Hj0 Hj1 Hj2 Hj3 Hj4 Hj5 HS0 HS1 Hg]
      · isplitr [Hg]
        · isplitl [Hj0]; · iexact Hj0
          isplitl [Hj1]; · iexact Hj1
          isplitl [Hj2]; · iexact Hj2
          isplitl [Hj3]; · iexact Hj3
          isplitl [Hj4]; · iexact Hj4
          isplitl [Hj5]; · iexact Hj5
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ )
          unfold owns; iexists _; isplitr
          swap; · iexact HS1
          ipureintro; exact View.read_writes_of_cover _ _ _ _ _ (scover1_A_1 c _ _ _ _ _ _ _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS1_castSucc V c t, PhiS1_pos V c _ _ hz]
      iintro ⟨⟨⟨Hj0, Hj1, Hj2, Hj3, Hj4, Hj5, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      iintro ⟨H0, H1, H2, H3, H4, H5, H6, H7, ⟨%es0, HS0⟩, ⟨%es1, HS1⟩⟩
      isplitl [Hj0 Hj1 Hj2 Hj3 Hj4 Hj5 HS0 HS1 Hg]
      · isplitr [Hg]
        · isplitl [Hj0]; · iexact Hj0
          isplitl [Hj1]; · iexact Hj1
          isplitl [Hj2]; · iexact Hj2
          isplitl [Hj3]; · iexact Hj3
          isplitl [Hj4]; · iexact Hj4
          isplitl [Hj5]; · iexact Hj5
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ )
          unfold owns; iexists _; isplitr
          swap; · iexact HS1
          ipureintro; exact View.read_writes_of_cover _ _ _ _ _ (scover1_A_1 c _ _ _ _ _ _ _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have h1 : t.val % 2 = 1 := by omega
    have hz : t.val ≠ 0 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [show (dat1 V c).leavesExact 5 t = owns (c : Thread nD τ) (ms1_5 t) fullShare ((dat1 V c).after 5 t) from by
      unfold Dat.leavesExact; rw [liveAt1_5 t], after1_5]
    rw [show (dat1 V c).leavesExact 6 t = owns (c : Thread nD τ) (ms1_6 t) fullShare ((dat1 V c).after 6 t) from by
      unfold Dat.leavesExact; rw [liveAt1_6 t], after1_6]
    rw [show (dat1 V c).leavesExact 7 t = owns (c : Thread nD τ) (ms1_7 t) fullShare ((dat1 V c).after 7 t) from by
      unfold Dat.leavesExact; rw [liveAt1_7_C t (fun h => h0 ((hcond1_0 t).mp h)) ((hcond1_1 t).mpr h1)], after1_7]
    rw [outsAt1_C V c t h0 h1]
    unfold out1_C_7 sout1_C_0 sout1_C_1; (try dsimp only)
    rw [PhiS1_castSucc V c t, PhiS1_pos V c _ _ hz]
    iintro ⟨⟨⟨Hj0, Hj1, Hj2, Hj3, Hj4, Hj5, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, ⟨%e7, H7⟩, ⟨%es0, HS0⟩, ⟨%es1, HS1⟩⟩
    isplitl [Hj0 Hj1 Hj2 Hj3 Hj4 Hj5 HS0 HS1 Hg]
    · isplitr [Hg]
      · isplitl [Hj0]; · iexact Hj0
        isplitl [Hj1]; · iexact Hj1
        isplitl [Hj2]; · iexact Hj2
        isplitl [Hj3]; · iexact Hj3
        isplitl [Hj4]; · iexact Hj4
        isplitl [Hj5]; · iexact Hj5
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _ _ _ _ _ _ _ _ )
        unfold owns; iexists _; isplitr
        swap; · iexact HS1
        ipureintro; exact View.read_writes_of_cover _ _ _ _ _ (scover1_C_1 c _ _ _ _ _ _ _ _ _ _ _ _ _ _ _ _ _ _ _ _ _ _ _ _ _ _ _ _ _ _ _ _ )
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover1_C_7 c _ _ _ _ _ _ _ _ _ _ _ _ _ _ _ _ _ _ _ _ _ _ _ _ _ _ _ _ _ _ _ _ )

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulators' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hj0, Hj1, Hj2, Hj3, Hj4, Hj5, HS0, HS1⟩, Hg⟩
  isplitr [Hg]
  · isplitl [Hj0]; · iexact Hj0
    isplitl [Hj1]; · iexact Hj1
    isplitl [Hj2]; · iexact Hj2
    isplitl [Hj3]; · iexact Hj3
    isplitl [Hj4]; · iexact Hj4
    isplitl [Hj5]; · iexact Hj5
    isplitl [HS0]; · iexists _; iexact HS0
    iexists _; iexact HS1
  iexact Hg

/-- The same after the last point. -/
theorem hout1 (c : Dev nD) : (dat1 V c).Φ (Fin.last cfg1.N) ⊢ Pipeline.ΦA spec1 c :=
  Phi_out1 V c _ (by rw [Fin.val_last]; have : cfg1.N = 16 := N_1; omega)

end Cert.Kernel.Frm

end
-- ==== Proof.K.Run.lean ====
/-
  The whole run of the two kernels in a row: the buffer contents at the three boundaries (at launch; after the message
  kernel, whose output array holds what its write-backs leave; after the aggregation kernel), the two regions as
  segments over the thread state "every unscoped buffer at the boundary's contents", and the run: every fair execution
  terminates with every unscoped buffer at the last boundary's contents — in particular the arguments as launched and
  the result array at what the aggregation pipeline's write-backs leave.
-/
import proofs.«133597_j88648124989935_1_alg».proof.Proof.K.Region0
import proofs.«133597_j88648124989935_1_alg».proof.Proof.K.Region1

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch (the message kernel's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the message kernel's exit: its arrays at what the pipeline leaves, every other buffer as entered. -/
def W2 (c : Dev nD) : Valuation τ sig (Elt F) :=
  Pipeline.withArrays spec0 c (W0 m ρ c) fun w => (dat0 (V0 m ρ) c).arrAt w cfg0.N
theorem W2_arr (c : Dev nD) (w : Fin cfg0.W) :
    W2 m ρ c (Proc.devRef .tc (Pipeline.arrRef spec0 w)) = (dat0 (V0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V0 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V0 m ρ c b :=
  fun b hb => W2_of_ne m ρ c b fun w e => hb (Finset.mem_image.mpr ⟨w, Finset.mem_univ _, e⟩)

/-- At the aggregation kernel's exit: its arrays at what the pipeline leaves, every other buffer as entered. -/
def W4 (c : Dev nD) : Valuation τ sig (Elt F) :=
  Pipeline.withArrays spec1 c (W2 m ρ c) fun w => (dat1 (V2 m ρ) c).arrAt w cfg1.N
theorem W4_arr (c : Dev nD) (w : Fin cfg1.W) :
    W4 m ρ c (Proc.devRef .tc (Pipeline.arrRef spec1 w)) = (dat1 (V2 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W2 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V2 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V2 m ρ c b :=
  fun b hb => W4_of_ne m ρ c b fun w e => hb (Finset.mem_image.mpr ⟨w, Finset.mem_univ _, e⟩)

/-! The arguments end as launched: a kernel reads one through an input window or bypasses it. -/

theorem W4_main_arg0 (c : Dev nD) : W4 m ρ c (Proc.devRef .tc main_arg0) = m ((c : Thread nD τ).loc main_arg0) :=
  calc W4 m ρ c (Proc.devRef .tc main_arg0)
    _ = W2 m ρ c (Proc.devRef .tc main_arg0) := (W4_arr m ρ c 2).trans (((dat1 (V2 m ρ) c).arrAt_in 2 rfl _).trans (A_eq1 (V2 m ρ) c 2))
    _ = W0 m ρ c (Proc.devRef .tc main_arg0) := (W2_arr m ρ c 0).trans (((dat0 (V0 m ρ) c).arrAt_in 0 rfl _).trans (A_eq0 (V0 m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W2 m ρ c (Proc.devRef .tc main_arg1) := (W4_arr m ρ c 0).trans (((dat1 (V2 m ρ) c).arrAt_in 0 rfl _).trans (A_eq1 (V2 m ρ) c 0))
    _ = W0 m ρ c (Proc.devRef .tc main_arg1) := W2_of_ne m ρ c main_arg1 (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W2 m ρ c (Proc.devRef .tc main_arg2) := W4_of_ne m ρ c main_arg2 (by decide)
    _ = W0 m ρ c (Proc.devRef .tc main_arg2) := (W2_arr m ρ c 1).trans (((dat0 (V0 m ρ) c).arrAt_in 1 rfl _).trans (A_eq0 (V0 m ρ) c 1))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W2 m ρ c (Proc.devRef .tc main_arg3) := W4_of_ne m ρ c main_arg3 (by decide)
    _ = W0 m ρ c (Proc.devRef .tc main_arg3) := (W2_arr m ρ c 2).trans (((dat0 (V0 m ρ) c).arrAt_in 2 rfl _).trans (A_eq0 (V0 m ρ) c 2))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W2 m ρ c (Proc.devRef .tc main_arg4) := (W4_arr m ρ c 3).trans (((dat1 (V2 m ρ) c).arrAt_in 3 rfl _).trans (A_eq1 (V2 m ρ) c 3))
    _ = W0 m ρ c (Proc.devRef .tc main_arg4) := W2_of_ne m ρ c main_arg4 (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W2 m ρ c (Proc.devRef .tc main_arg5) := (W4_arr m ρ c 4).trans (((dat1 (V2 m ρ) c).arrAt_in 4 rfl _).trans (A_eq1 (V2 m ρ) c 4))
    _ = W0 m ρ c (Proc.devRef .tc main_arg5) := W2_of_ne m ρ c main_arg5 (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W2 m ρ c (Proc.devRef .tc main_arg6) := (W4_arr m ρ c 5).trans (((dat1 (V2 m ρ) c).arrAt_in 5 rfl _).trans (A_eq1 (V2 m ρ) c 5))
    _ = W0 m ρ c (Proc.devRef .tc main_arg6) := W2_of_ne m ρ c main_arg6 (by decide)
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W2 m ρ c (Proc.devRef .tc main_arg7) := (W4_arr m ρ c 6).trans (((dat1 (V2 m ρ) c).arrAt_in 6 rfl _).trans (A_eq1 (V2 m ρ) c 6))
    _ = W0 m ρ c (Proc.devRef .tc main_arg7) := W2_of_ne m ρ c main_arg7 (by decide)
    _ = m ((c : Thread nD τ).loc main_arg7) := rfl

/-- The result array ends at what the aggregation pipeline's write-backs leave. -/
theorem W4_main_v1 (c : Dev nD) : W4 m ρ c (Proc.devRef .tc main_v1) = (dat1 (V2 m ρ) c).arrAt 7 cfg1.N :=
  W4_arr m ρ c 7

/-- The message array the aggregation kernel reads is what the message pipeline's write-backs leave. -/
theorem V2_main_v0 (c : Dev nD) : V2 m ρ c main_v0 = (dat0 (V0 m ρ) c).arrAt 3 cfg0.N :=
  W2_arr m ρ c 3

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's debts, at nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- Region 0 over the thread state: entered from every unscoped buffer at W0, left at W2. Its arrays are split
    out of the unscoped buffers and put back at the exit contents; the generator register goes into the invariant and
    comes out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W2, left at W4. Its arrays are split
    out of the unscoped buffers and put back at the exit contents; the generator register goes into the invariant and
    comes out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have hΦ : (pdats m ρ 1 c).Φ (Fin.last _) ⊢ Pipeline.ΦA spec1 c := hout1 (V2 m ρ) c
    unfold Pipeline.ΦA at hΦ
    refine hΦ.trans ?_
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's two segments in order. -/
abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state holds the result array at what the aggregation pipeline's write-backs leave and
    each argument array as launched. -/
theorem run_all : θ_run defs (onTc (τ := τ) (main (F := F))) ⟨m, fun _ => 0, ρ⟩ (fun r => ∀ c : Dev nD,
      r.2.mem ((c.tc : Thread nD τ).loc main_v1) = (dat1 (V2 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v1 (by decide))).trans (W4_main_v1 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

/-- THE FRAME: the arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_all m ρ)

end Cert.Kernel.Frm

end
-- ==== Proof.KI.Region0.lean ====
/-
  The message kernel's half of the frame: a grid of four points, each reading one block of 2048 rows of the node
  features together with the whole weight matrix and bias, and writing the block of 2048 rows of messages. The body
  loads its three inputs whole and stores its one result whole, so after the body the output's staging buffer is one
  function of the three input blocks; the inputs' buffers hold their blocks at every point.
-/
import proofs.«133597_j88648124989935_1_alg».proof.Proof.Gen.KernelIdeal.Launch
import proofs.«133597_j88648124989935_1_alg».proof.Proof.Gen.KernelIdeal.Skeleton
import proofs.«133597_j88648124989935_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2048x128 := Rect.unit (s := S2048x128) ![0, 0] S2048x128.size inb_S2048x128_S2048x128_0_0
abbrev r0_1 : Rect S128x128 := Rect.unit (s := S128x128) ![0, 0] S128x128.size inb_S128x128_S128x128_0_0
abbrev r0_2 : Rect S128 := Rect.unit (s := S128) ![0] S128.size inb_S128_S128_0

/-- The output's staging buffer after the body, from the three input blocks: its one whole store. -/
def out0_3 (x0 : Vec F S2048x128 .f32) (x1 : Vec F S128x128 .f32) (x2 : Vec F S128 .f32) : Vec F S2048x128 .bf16 :=
  View.canon [⟨r0_0, k0_pay1 (View.ld x0 r0_0) (View.ld x1 r0_1) (View.ld x2 r0_2)⟩]

/-- The one store covers the buffer. -/
theorem cover0_3 (p0 : Vec F S2048x128 .bf16) (y : S2048x128.Idx) :
    ∃ pc ∈ ([⟨r0_0, p0⟩] : List (View.Piece (Elt F) S2048x128 .bf16)), y ∈ pc.1.set :=
  View.cover_of_tiled [⟨r0_0, p0⟩] S2048x128.size (by rfl) y

set_option maxHeartbeats 1000000 in
/-- The body on whole staging memrefs, the inputs' at read contents and the output's at anything, runs to the
    continuation holding the inputs' as they were and the output's at out0_3 of the inputs'. -/
theorem sound_kernel0 (c : Dev nD) (E : Set ℕ) (i : grid0.Coords) (arg1 : Memref sig .tc .vmem S2048x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2048x128 .bf16) (harg4 : arg4.IsWhole)
    (x0 : Vec F S2048x128 .f32) (x1 : Vec F S128x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__msg_kernel i arg1 harg1 arg2 harg2 arg3 harg3 arg4 harg4) K := by
  simp only [cc0__msg_kernel_eq_skeleton]; unfold cc0__msg_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the message pipeline on core c: the arrays as the region finds them; after the body at point t
    each input's buffer at its block and the output's at out0_3 of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the kernel's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KI.Region1Base.lean ====
/-
  The aggregation kernel's half of the frame, first part: what its two control cases share. The grid is 8 row tiles by
  2 reduction tiles; the point's second coordinate k decides the case: at k = 0 the two accumulators (the weighted sum
  of messages and the degree) are zeroed before the tile's contribution is added, at k = 1 the contribution is added
  to what the point before left and the recurrent unit's update of the row tile is stored. The output window is idle
  at the points with k = 0 and written back at those with k = 1.
-/
import proofs.«133597_j88648124989935_1_alg».proof.Proof.Gen.KernelIdeal.Launch
import proofs.«133597_j88648124989935_1_alg».proof.Proof.Gen.KernelIdeal.Skeleton
import proofs.«133597_j88648124989935_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

end Blocks

/-- The body's first branch condition, from the grid coordinates: the reduction coordinate is zero. -/
abbrev cond1_0 (i : grid1.Coords) : Prop := (Scalar.cmpi .ne (Scalar.extui (Scalar.cmpi .eq (BitVec.ofNat 32 (i 1).val) 0#32)) 0#32) = 1#1
/-- It holds at the even points. -/
theorem hcond1_0 : ∀ t : Fin cfg1.N, cond1_0 (grid1.coords t) ↔ t.val % 2 = 0 :=
  (by decide +kernel : ∀ t : Fin grid1.N, cond1_0 (grid1.coords t) ↔ t.val % 2 = 0)
/-- The body's second branch condition: the reduction coordinate is the last. -/
abbrev cond1_1 (i : grid1.Coords) : Prop := k1_cond2 i = 1#1
/-- It holds at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
/-- At the even points the output window is idle and not written back; at the odd points it is live. -/
theorem idleAt1_7_A : ∀ t : Fin cfg1.N, cond1_0 (grid1.coords t) → ¬cond1_1 (grid1.coords t) → cfg1.idle 7 (grid1.coords t) = true := by decide +kernel
theorem noFlush1_7_A : ∀ t : Fin cfg1.N, cond1_0 (grid1.coords t) → ¬cond1_1 (grid1.coords t) → (cfg1.win 7).flush t = false := by decide +kernel
theorem liveAt1_7_C : ∀ t : Fin cfg1.N, ¬cond1_0 (grid1.coords t) → cond1_1 (grid1.coords t) → cfg1.idle 7 (grid1.coords t) = false := by decide +kernel

/-- One staging buffer of the output window, through which its contents are stated. -/
abbrev VO1_7 : View sig .tc .vmem S1024x128 .f32 := (Memref.whole cc1_stg7_0 : Memref sig .tc .vmem S1024x128 .f32).view
abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
abbrev ms1_3 (t : Fin cfg1.N) := win1_3.stage (cfg1.slots t 3)
abbrev hs1_3 (t : Fin cfg1.N) : (ms1_3 t).IsWhole := hstage1_3 ((cfg1.slots t 3).cast nbuf1_3)
abbrev ms1_4 (t : Fin cfg1.N) := win1_4.stage (cfg1.slots t 4)
abbrev hs1_4 (t : Fin cfg1.N) : (ms1_4 t).IsWhole := hstage1_4 ((cfg1.slots t 4).cast nbuf1_4)
abbrev ms1_5 (t : Fin cfg1.N) := win1_5.stage (cfg1.slots t 5)
abbrev hs1_5 (t : Fin cfg1.N) : (ms1_5 t).IsWhole := hstage1_5 ((cfg1.slots t 5).cast nbuf1_5)
abbrev ms1_6 (t : Fin cfg1.N) := win1_6.stage (cfg1.slots t 6)
abbrev hs1_6 (t : Fin cfg1.N) : (ms1_6 t).IsWhole := hstage1_6 ((cfg1.slots t 6).cast nbuf1_6)
abbrev ms1_7 (t : Fin cfg1.N) := win1_7.stage (cfg1.slots t 7)
abbrev hs1_7 (t : Fin cfg1.N) : (ms1_7 t).IsWhole := hstage1_7 ((cfg1.slots t 7).cast nbuf1_7)
/-- The two accumulators: whole scoped buffers of the kernel's own, carried between points. -/
abbrev scM1_0 : Memref sig .tc .vmem S1024x128 .f32 := Memref.whole cc1_scratch0
abbrev scM1_1 : Memref sig .tc .vmem S1024x1 .f32 := Memref.whole cc1_scratch1
abbrev VS1_0 : View sig .tc .vmem S1024x128 .f32 := scM1_0.view
abbrev VS1_1 : View sig .tc .vmem S1024x1 .f32 := scM1_1.view

/-- A scoped buffer the kernel never touches, whole at some contents. -/
abbrev anyBuf (c : Dev nD) (r : Ref sig .tc) : sProp 𝕄 :=
  iprop(∃ f : Buf (Elt F) ((c : Thread nD τ).loc r), ((c : Thread nD τ).loc r) ↦{fullShare} f)

/-- The class invariant with the two accumulators as memrefs owned at some contents: the other pipeline's six staging
    buffers at anything, the accumulators at anything, the generator register at some state. -/
theorem PhiA1_eq (c : Dev nD) :
    (Pipeline.ΦA spec1 c : sProp 𝕄)
      = iprop(iprop(anyBuf c cc0_stg0_0 ∗ anyBuf c cc0_stg0_1 ∗ anyBuf c cc0_stg1_0 ∗ anyBuf c cc0_stg2_0 ∗ anyBuf c cc0_stg3_0 ∗ anyBuf c cc0_stg3_1
          ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Cert.KernelIdeal.Frm

end
-- ==== Proof.KI.Region1RunA.lean ====
/-
  The aggregation kernel's whole body run where the reduction coordinate is zero (the accumulators are zeroed, the tile's contribution added, the output left untouched): the stores each buffer ends with are found by running the body
  symbolically on whole staging memrefs.
-/
import proofs.«133597_j88648124989935_1_alg».proof.Proof.KI.Region1Base

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case k = 0: the pieces the accumulators end with, with the proof that on whole memrefs — the inputs at their
    contents, the idle output at contents handed back untouched, the accumulators at anything — the body runs to the
    continuation holding the inputs and the output as they were and each accumulator with its pieces written. -/
noncomputable def kernelRun1_A (c : Dev nD) (i : grid1.Coords) (arg2 : Memref sig .tc .vmem S1024x4096 .i32) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S384x128 .f32) (harg5 : arg5.IsWhole) (arg6 : Memref sig .tc .vmem S384x128 .f32) (harg6 : arg6.IsWhole) (arg7 : Memref sig .tc .vmem S384 .f32) (harg7 : arg7.IsWhole) (arg8 : Memref sig .tc .vmem S384 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x1 .f32) (harg11 : arg11.IsWhole) (hc0 : cond1_0 i) (hc1 : ¬cond1_1 i)
    (x0 : Vec F S1024x4096 .i32) (x1 : Vec F S4096x128 .bf16) (x2 : Vec F S1024x128 .f32) (x3 : Vec F S384x128 .f32) (x4 : Vec F S384x128 .f32) (x5 : Vec F S384 .f32) (x6 : Vec F S384 .f32) :
    Σ' (L7 : List (View.Piece (Elt F) S1024x128 .f32)) (LS0 : List (View.Piece (Elt F) S1024x128 .f32)), { LS1 : List (View.Piece (Elt F) S1024x1 .f32) //
      ∀ (xi7 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__gnn_kernel i arg2 harg2 arg3 harg3 arg4 harg4 arg5 harg5 arg6 harg6 arg7 harg7 arg8 harg8 arg9 harg9 arg10 harg10 arg11 harg11) K } := by
  refine ⟨[], ?_, ?_, fun xi7 E K => ?run⟩
  case run =>
    simp only [cc1__gnn_kernel_eq_skeleton]; unfold cc1__gnn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.KernelIdeal.Frm

end
-- ==== Proof.KI.Region1RunC.lean ====
/-
  The aggregation kernel's whole body run where the reduction coordinate is the last (the tile's contribution added to what the point before left, then the recurrent unit's update stored): the stores each buffer ends with are found by running the body
  symbolically on whole staging memrefs.
-/
import proofs.«133597_j88648124989935_1_alg».proof.Proof.KI.Region1Base

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case k = 1: the pieces the output and the accumulators end with, with the proof that on whole memrefs — the
    inputs at their contents, the output at anything, the accumulators at what the point before left — the body runs
    to the continuation holding the inputs as they were and each of the three buffers with its pieces written. -/
noncomputable def kernelRun1_C (c : Dev nD) (i : grid1.Coords) (arg2 : Memref sig .tc .vmem S1024x4096 .i32) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S384x128 .f32) (harg5 : arg5.IsWhole) (arg6 : Memref sig .tc .vmem S384x128 .f32) (harg6 : arg6.IsWhole) (arg7 : Memref sig .tc .vmem S384 .f32) (harg7 : arg7.IsWhole) (arg8 : Memref sig .tc .vmem S384 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x1 .f32) (harg11 : arg11.IsWhole) (hc0 : ¬cond1_0 i) (hc1 : cond1_1 i)
    (x0 : Vec F S1024x4096 .i32) (x1 : Vec F S4096x128 .bf16) (x2 : Vec F S1024x128 .f32) (x3 : Vec F S384x128 .f32) (x4 : Vec F S384x128 .f32) (x5 : Vec F S384 .f32) (x6 : Vec F S384 .f32) (xs0 : Vec F S1024x128 .f32) (xs1 : Vec F S1024x1 .f32) :
    Σ' (L7 : List (View.Piece (Elt F) S1024x128 .f32)) (LS0 : List (View.Piece (Elt F) S1024x128 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__gnn_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc1__gnn_kernel_eq_skeleton]; unfold cc1__gnn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]; · iexists _; iexact HS0
    iexists _; iexact HS1

end Cert.KernelIdeal.Frm

end
-- ==== Proof.KI.Region1.lean ====
/-
  The aggregation kernel's half of the frame, last part: what the output and the two accumulators hold after each
  point, the invariant that carries the accumulators from a point to the next, the proof data and the body obligation.
  At an even point (reduction coordinate 0) the accumulators end at the zeroed value plus the tile's contribution; at
  an odd point they end at the previous point's value plus the tile's contribution, and the output block at the
  recurrent unit's update computed from them.
-/
import proofs.«133597_j88648124989935_1_alg».proof.Proof.KI.Region1RunA
import proofs.«133597_j88648124989935_1_alg».proof.Proof.KI.Region1RunC

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What case A leaves in the output's staging buffer: its pieces read back over junk (none: a placeholder nothing consults, the window being idle there). -/
def out1_A_7 (c : Dev nD) (i : grid1.Coords) (arg2 : Memref sig .tc .vmem S1024x4096 .i32) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S384x128 .f32) (harg5 : arg5.IsWhole) (arg6 : Memref sig .tc .vmem S384x128 .f32) (harg6 : arg6.IsWhole) (arg7 : Memref sig .tc .vmem S384 .f32) (harg7 : arg7.IsWhole) (arg8 : Memref sig .tc .vmem S384 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x1 .f32) (harg11 : arg11.IsWhole) (hc0 : cond1_0 i) (hc1 : ¬cond1_1 i)
    (x0 : Vec F S1024x4096 .i32) (x1 : Vec F S4096x128 .bf16) (x2 : Vec F S1024x128 .f32) (x3 : Vec F S384x128 .f32) (x4 : Vec F S384x128 .f32) (x5 : Vec F S384 .f32) (x6 : Vec F S384 .f32) : Vec F S1024x128 .f32 :=
  VO1_7.read (Elt F) (VO1_7.writes (Elt F) VO1_7.junk (kernelRun1_A c i arg2 harg2 arg3 harg3 arg4 harg4 arg5 harg5 arg6 harg6 arg7 harg7 arg8 harg8 arg9 harg9 arg10 harg10 arg11 harg11 hc0 hc1 x0 x1 x2 x3 x4 x5 x6).1)

/-- Case A's stores into the first accumulator cover it. -/
theorem scover1_A_0 (c : Dev nD) (i : grid1.Coords) (arg2 : Memref sig .tc .vmem S1024x4096 .i32) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S384x128 .f32) (harg5 : arg5.IsWhole) (arg6 : Memref sig .tc .vmem S384x128 .f32) (harg6 : arg6.IsWhole) (arg7 : Memref sig .tc .vmem S384 .f32) (harg7 : arg7.IsWhole) (arg8 : Memref sig .tc .vmem S384 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x1 .f32) (harg11 : arg11.IsWhole) (hc0 : cond1_0 i) (hc1 : ¬cond1_1 i)
    (x0 : Vec F S1024x4096 .i32) (x1 : Vec F S4096x128 .bf16) (x2 : Vec F S1024x128 .f32) (x3 : Vec F S384x128 .f32) (x4 : Vec F S384x128 .f32) (x5 : Vec F S384 .f32) (x6 : Vec F S384 .f32) (y : S1024x128.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5 x6).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5 x6).2.1 S1024x128.size (by sl_kernel_rfl) y

/-- What case A leaves in the first accumulator. -/
def sout1_A_0 (c : Dev nD) (i : grid1.Coords) (arg2 : Memref sig .tc .vmem S1024x4096 .i32) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S384x128 .f32) (harg5 : arg5.IsWhole) (arg6 : Memref sig .tc .vmem S384x128 .f32) (harg6 : arg6.IsWhole) (arg7 : Memref sig .tc .vmem S384 .f32) (harg7 : arg7.IsWhole) (arg8 : Memref sig .tc .vmem S384 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x1 .f32) (harg11 : arg11.IsWhole) (hc0 : cond1_0 i) (hc1 : ¬cond1_1 i)
    (x0 : Vec F S1024x4096 .i32) (x1 : Vec F S4096x128 .bf16) (x2 : Vec F S1024x128 .f32) (x3 : Vec F S384x128 .f32) (x4 : Vec F S384x128 .f32) (x5 : Vec F S384 .f32) (x6 : Vec F S384 .f32) : Vec F S1024x128 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 hc1 x0 x1 x2 x3 x4 x5 x6).2.1)

/-- Case A's stores into the second accumulator cover it. -/
theorem scover1_A_1 (c : Dev nD) (i : grid1.Coords) (arg2 : Memref sig .tc .vmem S1024x4096 .i32) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S384x128 .f32) (harg5 : arg5.IsWhole) (arg6 : Memref sig .tc .vmem S384x128 .f32) (harg6 : arg6.IsWhole) (arg7 : Memref sig .tc .vmem S384 .f32) (harg7 : arg7.IsWhole) (arg8 : Memref sig .tc .vmem S384 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x1 .f32) (harg11 : arg11.IsWhole) (hc0 : cond1_0 i) (hc1 : ¬cond1_1 i)
    (x0 : Vec F S1024x4096 .i32) (x1 : Vec F S4096x128 .bf16) (x2 : Vec F S1024x128 .f32) (x3 : Vec F S384x128 .f32) (x4 : Vec F S384x128 .f32) (x5 : Vec F S384 .f32) (x6 : Vec F S384 .f32) (y : S1024x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5 x6).2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5 x6).2.2.1 S1024x1.size (by sl_kernel_rfl) y

/-- What case A leaves in the second accumulator. -/
def sout1_A_1 (c : Dev nD) (i : grid1.Coords) (arg2 : Memref sig .tc .vmem S1024x4096 .i32) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S384x128 .f32) (harg5 : arg5.IsWhole) (arg6 : Memref sig .tc .vmem S384x128 .f32) (harg6 : arg6.IsWhole) (arg7 : Memref sig .tc .vmem S384 .f32) (harg7 : arg7.IsWhole) (arg8 : Memref sig .tc .vmem S384 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x1 .f32) (harg11 : arg11.IsWhole) (hc0 : cond1_0 i) (hc1 : ¬cond1_1 i)
    (x0 : Vec F S1024x4096 .i32) (x1 : Vec F S4096x128 .bf16) (x2 : Vec F S1024x128 .f32) (x3 : Vec F S384x128 .f32) (x4 : Vec F S384x128 .f32) (x5 : Vec F S384 .f32) (x6 : Vec F S384 .f32) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 hc0 hc1 x0 x1 x2 x3 x4 x5 x6).2.2.1)

/-- What case C leaves in the output's staging buffer: its pieces read back over junk. -/
def out1_C_7 (c : Dev nD) (i : grid1.Coords) (arg2 : Memref sig .tc .vmem S1024x4096 .i32) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S384x128 .f32) (harg5 : arg5.IsWhole) (arg6 : Memref sig .tc .vmem S384x128 .f32) (harg6 : arg6.IsWhole) (arg7 : Memref sig .tc .vmem S384 .f32) (harg7 : arg7.IsWhole) (arg8 : Memref sig .tc .vmem S384 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x1 .f32) (harg11 : arg11.IsWhole) (hc0 : ¬cond1_0 i) (hc1 : cond1_1 i)
    (x0 : Vec F S1024x4096 .i32) (x1 : Vec F S4096x128 .bf16) (x2 : Vec F S1024x128 .f32) (x3 : Vec F S384x128 .f32) (x4 : Vec F S384x128 .f32) (x5 : Vec F S384 .f32) (x6 : Vec F S384 .f32) (xs0 : Vec F S1024x128 .f32) (xs1 : Vec F S1024x1 .f32) : Vec F S1024x128 .f32 :=
  VO1_7.read (Elt F) (VO1_7.writes (Elt F) VO1_7.junk (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).1)

/-- Case C's one store into the output covers its block. -/
theorem cover1_C_7 (c : Dev nD) (i : grid1.Coords) (arg2 : Memref sig .tc .vmem S1024x4096 .i32) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S384x128 .f32) (harg5 : arg5.IsWhole) (arg6 : Memref sig .tc .vmem S384x128 .f32) (harg6 : arg6.IsWhole) (arg7 : Memref sig .tc .vmem S384 .f32) (harg7 : arg7.IsWhole) (arg8 : Memref sig .tc .vmem S384 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x1 .f32) (harg11 : arg11.IsWhole) (hc0 : ¬cond1_0 i) (hc1 : cond1_1 i)
    (x0 : Vec F S1024x4096 .i32) (x1 : Vec F S4096x128 .bf16) (x2 : Vec F S1024x128 .f32) (x3 : Vec F S384x128 .f32) (x4 : Vec F S384x128 .f32) (x5 : Vec F S384 .f32) (x6 : Vec F S384 .f32) (xs0 : Vec F S1024x128 .f32) (xs1 : Vec F S1024x1 .f32) (y : S1024x128.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).1 S1024x128.size (by sl_kernel_rfl) y

/-- Case C's stores into the first accumulator cover it. -/
theorem scover1_C_0 (c : Dev nD) (i : grid1.Coords) (arg2 : Memref sig .tc .vmem S1024x4096 .i32) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S384x128 .f32) (harg5 : arg5.IsWhole) (arg6 : Memref sig .tc .vmem S384x128 .f32) (harg6 : arg6.IsWhole) (arg7 : Memref sig .tc .vmem S384 .f32) (harg7 : arg7.IsWhole) (arg8 : Memref sig .tc .vmem S384 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x1 .f32) (harg11 : arg11.IsWhole) (hc0 : ¬cond1_0 i) (hc1 : cond1_1 i)
    (x0 : Vec F S1024x4096 .i32) (x1 : Vec F S4096x128 .bf16) (x2 : Vec F S1024x128 .f32) (x3 : Vec F S384x128 .f32) (x4 : Vec F S384x128 .f32) (x5 : Vec F S384 .f32) (x6 : Vec F S384 .f32) (xs0 : Vec F S1024x128 .f32) (xs1 : Vec F S1024x1 .f32) (y : S1024x128.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).2.1 S1024x128.size (by sl_kernel_rfl) y

/-- What case C leaves in the first accumulator. -/
def sout1_C_0 (c : Dev nD) (i : grid1.Coords) (arg2 : Memref sig .tc .vmem S1024x4096 .i32) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S384x128 .f32) (harg5 : arg5.IsWhole) (arg6 : Memref sig .tc .vmem S384x128 .f32) (harg6 : arg6.IsWhole) (arg7 : Memref sig .tc .vmem S384 .f32) (harg7 : arg7.IsWhole) (arg8 : Memref sig .tc .vmem S384 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x1 .f32) (harg11 : arg11.IsWhole) (hc0 : ¬cond1_0 i) (hc1 : cond1_1 i)
    (x0 : Vec F S1024x4096 .i32) (x1 : Vec F S4096x128 .bf16) (x2 : Vec F S1024x128 .f32) (x3 : Vec F S384x128 .f32) (x4 : Vec F S384x128 .f32) (x5 : Vec F S384 .f32) (x6 : Vec F S384 .f32) (xs0 : Vec F S1024x128 .f32) (xs1 : Vec F S1024x1 .f32) : Vec F S1024x128 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).2.1)

/-- Case C's stores into the second accumulator cover it. -/
theorem scover1_C_1 (c : Dev nD) (i : grid1.Coords) (arg2 : Memref sig .tc .vmem S1024x4096 .i32) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S384x128 .f32) (harg5 : arg5.IsWhole) (arg6 : Memref sig .tc .vmem S384x128 .f32) (harg6 : arg6.IsWhole) (arg7 : Memref sig .tc .vmem S384 .f32) (harg7 : arg7.IsWhole) (arg8 : Memref sig .tc .vmem S384 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x1 .f32) (harg11 : arg11.IsWhole) (hc0 : ¬cond1_0 i) (hc1 : cond1_1 i)
    (x0 : Vec F S1024x4096 .i32) (x1 : Vec F S4096x128 .bf16) (x2 : Vec F S1024x128 .f32) (x3 : Vec F S384x128 .f32) (x4 : Vec F S384x128 .f32) (x5 : Vec F S384 .f32) (x6 : Vec F S384 .f32) (xs0 : Vec F S1024x128 .f32) (xs1 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).2.2.1 S1024x1.size (by sl_kernel_rfl) y

/-- What case C leaves in the second accumulator. -/
def sout1_C_1 (c : Dev nD) (i : grid1.Coords) (arg2 : Memref sig .tc .vmem S1024x4096 .i32) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S384x128 .f32) (harg5 : arg5.IsWhole) (arg6 : Memref sig .tc .vmem S384x128 .f32) (harg6 : arg6.IsWhole) (arg7 : Memref sig .tc .vmem S384 .f32) (harg7 : arg7.IsWhole) (arg8 : Memref sig .tc .vmem S384 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x1 .f32) (harg11 : arg11.IsWhole) (hc0 : ¬cond1_0 i) (hc1 : cond1_1 i)
    (x0 : Vec F S1024x4096 .i32) (x1 : Vec F S4096x128 .bf16) (x2 : Vec F S1024x128 .f32) (x3 : Vec F S384x128 .f32) (x4 : Vec F S384x128 .f32) (x5 : Vec F S384 .f32) (x6 : Vec F S384 .f32) (xs0 : Vec F S1024x128 .f32) (xs1 : Vec F S1024x1 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).2.2.1)

variable (V : (c : Dev nD) → (b : Ref sig .tc) → Buf (Elt F) ((c : Thread nD τ).loc b))

/-- The accumulation: what the output's staging buffer and the two accumulators hold after the body at position n
    (the output, then the accumulators): the case the parity of n selects, run at the point's memrefs and input
    blocks; at an odd point over what the point before left in the accumulators. -/
def outsAt1 (c : Dev nD) : (n : ℕ) → n < cfg1.N → Vec F S1024x128 .f32 × Vec F S1024x128 .f32 × Vec F S1024x1 .f32
  | 0, hn => (out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩))
  | n + 1, hn =>
    if h0 : (n + 1) % 2 = 0 then
      (out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩))
    else
      (out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) ((hcond1_1 ⟨n + 1, hn⟩).mpr (by (try dsimp only); omega)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) ((hcond1_1 ⟨n + 1, hn⟩).mpr (by (try dsimp only); omega)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) ((hcond1_1 ⟨n + 1, hn⟩).mpr (by (try dsimp only); omega)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2)

/-- The accumulation at an even point: case A's contents. -/
theorem outsAt1_A (c : Dev nD) (t : Fin cfg1.N) (h0 : t.val % 2 = 0) (h1 : ¬t.val % 2 = 1) :
    outsAt1 V c t.val t.isLt = (out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)) := by
  obtain ⟨n, hn⟩ := t
  cases n with
  | zero => exact rfl
  | succ n => exact (dif_pos h0).trans rfl

/-- The accumulation at an odd point: case C's contents, over what the point before left. -/
theorem outsAt1_C (c : Dev nD) (t : Fin cfg1.N) (h0 : ¬t.val % 2 = 0) (h1 : t.val % 2 = 1) :
    outsAt1 V c t.val t.isLt = (out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position n: before the first point the class's (every scoped buffer outside the
    windows at anything); afterwards the same with each accumulator at what the point before left in it. -/
def PhiS1 (c : Dev nD) : (n : ℕ) → n ≤ cfg1.N → sProp 𝕄
  | 0, _ => Pipeline.ΦA spec1 c
  | n + 1, hn => iprop(iprop(anyBuf c cc0_stg0_0 ∗ anyBuf c cc0_stg0_1 ∗ anyBuf c cc0_stg1_0 ∗ anyBuf c cc0_stg2_0 ∗ anyBuf c cc0_stg3_0 ∗ anyBuf c cc0_stg3_1
      ∗ owns (c : Thread nD τ) scM1_0 fullShare ((outsAt1 V c n hn).2.1) ∗ owns (c : Thread nD τ) scM1_1 fullShare ((outsAt1 V c n hn).2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(anyBuf c cc0_stg0_0 ∗ anyBuf c cc0_stg0_1 ∗ anyBuf c cc0_stg1_0 ∗ anyBuf c cc0_stg2_0 ∗ anyBuf c cc0_stg3_0 ∗ anyBuf c cc0_stg3_1
      ∗ owns (c : Thread nD τ) scM1_0 fullShare ((outsAt1 V c n hn).2.1) ∗ owns (c : Thread nD τ) scM1_1 fullShare ((outsAt1 V c n hn).2.2)) ∗ (∃ r, prngReg c r)) := rfl

theorem PhiS1_pos (c : Dev nD) (n : ℕ) (h : n ≤ cfg1.N) (hz : n ≠ 0) :
    PhiS1 V c n h = iprop(iprop(anyBuf c cc0_stg0_0 ∗ anyBuf c cc0_stg0_1 ∗ anyBuf c cc0_stg1_0 ∗ anyBuf c cc0_stg2_0 ∗ anyBuf c cc0_stg3_0 ∗ anyBuf c cc0_stg3_1
      ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

/-- The proof data of the aggregation pipeline on core c: the arrays as the region finds them; after the body at
    point t each input's buffer at its block and the output's at the accumulation's first component; the invariant
    PhiS1; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point: the inputs' memrefs hold their blocks; the parity of the point says which case it is in;
    the invariant hands the body the accumulators at what the point before left (at anything at the first point) and
    takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  by_cases h0 : t.val % 2 = 0
  · have h1 : ¬t.val % 2 = 1 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [show (dat1 V c).leavesExact 5 t = owns (c : Thread nD τ) (ms1_5 t) fullShare ((dat1 V c).after 5 t) from by
      unfold Dat.leavesExact; rw [liveAt1_5 t], after1_5]
    rw [show (dat1 V c).leavesExact 6 t = owns (c : Thread nD τ) (ms1_6 t) fullShare ((dat1 V c).after 6 t) from by
      unfold Dat.leavesExact; rw [liveAt1_6 t], after1_6]
    rw [Dat.leavesExact_idle (dat1 V c) 7 t (idleAt1_7_A t ((hcond1_0 t).mpr h0) (fun h => h1 ((hcond1_1 t).mp h))) (noFlush1_7_A t ((hcond1_0 t).mpr h0) (fun h => h1 ((hcond1_1 t).mp h)))]
    rw [outsAt1_A V c t h0 h1]
    unfold sout1_A_0 sout1_A_1; (try dsimp only)
    by_cases hz : t.val = 0
    · rw [PhiS1_castSucc V c t, PhiS1_zero V c _ _ hz, PhiA1_eq]
      iintro ⟨⟨⟨Hj0, Hj1, Hj2, Hj3, Hj4, Hj5, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [Hj0 Hj1 Hj2 Hj3 Hj4 Hj5 HS0 HS1 Hg]
      · isplitr [Hg]
        · isplitl [Hj0]; · iexact Hj0
          isplitl [Hj1]; · iexact Hj1
          isplitl [Hj2]; · iexact Hj2
          isplitl [Hj3]; · iexact Hj3
          isplitl [Hj4]; · iexact Hj4
          isplitl [Hj5]; · iexact Hj5
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ )
          unfold owns; iexists _; isplitr
          swap; · iexact HS1
          ipureintro; exact View.read_writes_of_cover _ _ _ _ _ (scover1_A_1 c _ _ _ _ _ _ _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS1_castSucc V c t, PhiS1_pos V c _ _ hz]
      iintro ⟨⟨⟨Hj0, Hj1, Hj2, Hj3, Hj4, Hj5, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      iintro ⟨H0, H1, H2, H3, H4, H5, H6, H7, ⟨%es0, HS0⟩, ⟨%es1, HS1⟩⟩
      isplitl [Hj0 Hj1 Hj2 Hj3 Hj4 Hj5 HS0 HS1 Hg]
      · isplitr [Hg]
        · isplitl [Hj0]; · iexact Hj0
          isplitl [Hj1]; · iexact Hj1
          isplitl [Hj2]; · iexact Hj2
          isplitl [Hj3]; · iexact Hj3
          isplitl [Hj4]; · iexact Hj4
          isplitl [Hj5]; · iexact Hj5
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ )
          unfold owns; iexists _; isplitr
          swap; · iexact HS1
          ipureintro; exact View.read_writes_of_cover _ _ _ _ _ (scover1_A_1 c _ _ _ _ _ _ _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have h1 : t.val % 2 = 1 := by omega
    have hz : t.val ≠ 0 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [show (dat1 V c).leavesExact 5 t = owns (c : Thread nD τ) (ms1_5 t) fullShare ((dat1 V c).after 5 t) from by
      unfold Dat.leavesExact; rw [liveAt1_5 t], after1_5]
    rw [show (dat1 V c).leavesExact 6 t = owns (c : Thread nD τ) (ms1_6 t) fullShare ((dat1 V c).after 6 t) from by
      unfold Dat.leavesExact; rw [liveAt1_6 t], after1_6]
    rw [show (dat1 V c).leavesExact 7 t = owns (c : Thread nD τ) (ms1_7 t) fullShare ((dat1 V c).after 7 t) from by
      unfold Dat.leavesExact; rw [liveAt1_7_C t (fun h => h0 ((hcond1_0 t).mp h)) ((hcond1_1 t).mpr h1)], after1_7]
    rw [outsAt1_C V c t h0 h1]
    unfold out1_C_7 sout1_C_0 sout1_C_1; (try dsimp only)
    rw [PhiS1_castSucc V c t, PhiS1_pos V c _ _ hz]
    iintro ⟨⟨⟨Hj0, Hj1, Hj2, Hj3, Hj4, Hj5, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, ⟨%e7, H7⟩, ⟨%es0, HS0⟩, ⟨%es1, HS1⟩⟩
    isplitl [Hj0 Hj1 Hj2 Hj3 Hj4 Hj5 HS0 HS1 Hg]
    · isplitr [Hg]
      · isplitl [Hj0]; · iexact Hj0
        isplitl [Hj1]; · iexact Hj1
        isplitl [Hj2]; · iexact Hj2
        isplitl [Hj3]; · iexact Hj3
        isplitl [Hj4]; · iexact Hj4
        isplitl [Hj5]; · iexact Hj5
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _ _ _ _ _ _ _ _ )
        unfold owns; iexists _; isplitr
        swap; · iexact HS1
        ipureintro; exact View.read_writes_of_cover _ _ _ _ _ (scover1_C_1 c _ _ _ _ _ _ _ _ _ _ _ _ _ _ _ _ _ _ _ _ _ _ _ _ _ _ _ _ _ _ _ _ )
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover1_C_7 c _ _ _ _ _ _ _ _ _ _ _ _ _ _ _ _ _ _ _ _ _ _ _ _ _ _ _ _ _ _ _ _ )

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulators' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hj0, Hj1, Hj2, Hj3, Hj4, Hj5, HS0, HS1⟩, Hg⟩
  isplitr [Hg]
  · isplitl [Hj0]; · iexact Hj0
    isplitl [Hj1]; · iexact Hj1
    isplitl [Hj2]; · iexact Hj2
    isplitl [Hj3]; · iexact Hj3
    isplitl [Hj4]; · iexact Hj4
    isplitl [Hj5]; · iexact Hj5
    isplitl [HS0]; · iexists _; iexact HS0
    iexists _; iexact HS1
  iexact Hg

/-- The same after the last point. -/
theorem hout1 (c : Dev nD) : (dat1 V c).Φ (Fin.last cfg1.N) ⊢ Pipeline.ΦA spec1 c :=
  Phi_out1 V c _ (by rw [Fin.val_last]; have : cfg1.N = 16 := N_1; omega)

end Cert.KernelIdeal.Frm

end
-- ==== Proof.KI.Run.lean ====
/-
  The whole run of the two kernels in a row: the buffer contents at the three boundaries (at launch; after the message
  kernel, whose output array holds what its write-backs leave; after the aggregation kernel), the two regions as
  segments over the thread state "every unscoped buffer at the boundary's contents", and the run: every fair execution
  terminates with every unscoped buffer at the last boundary's contents — in particular the arguments as launched and
  the result array at what the aggregation pipeline's write-backs leave.
-/
import proofs.«133597_j88648124989935_1_alg».proof.Proof.KI.Region0
import proofs.«133597_j88648124989935_1_alg».proof.Proof.KI.Region1

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch (the message kernel's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the message kernel's exit: its arrays at what the pipeline leaves, every other buffer as entered. -/
def W2 (c : Dev nD) : Valuation τ sig (Elt F) :=
  Pipeline.withArrays spec0 c (W0 m ρ c) fun w => (dat0 (V0 m ρ) c).arrAt w cfg0.N
theorem W2_arr (c : Dev nD) (w : Fin cfg0.W) :
    W2 m ρ c (Proc.devRef .tc (Pipeline.arrRef spec0 w)) = (dat0 (V0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V0 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V0 m ρ c b :=
  fun b hb => W2_of_ne m ρ c b fun w e => hb (Finset.mem_image.mpr ⟨w, Finset.mem_univ _, e⟩)

/-- At the aggregation kernel's exit: its arrays at what the pipeline leaves, every other buffer as entered. -/
def W4 (c : Dev nD) : Valuation τ sig (Elt F) :=
  Pipeline.withArrays spec1 c (W2 m ρ c) fun w => (dat1 (V2 m ρ) c).arrAt w cfg1.N
theorem W4_arr (c : Dev nD) (w : Fin cfg1.W) :
    W4 m ρ c (Proc.devRef .tc (Pipeline.arrRef spec1 w)) = (dat1 (V2 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W2 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V2 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V2 m ρ c b :=
  fun b hb => W4_of_ne m ρ c b fun w e => hb (Finset.mem_image.mpr ⟨w, Finset.mem_univ _, e⟩)

/-! The arguments end as launched: a kernel reads one through an input window or bypasses it. -/

theorem W4_main_arg0 (c : Dev nD) : W4 m ρ c (Proc.devRef .tc main_arg0) = m ((c : Thread nD τ).loc main_arg0) :=
  calc W4 m ρ c (Proc.devRef .tc main_arg0)
    _ = W2 m ρ c (Proc.devRef .tc main_arg0) := (W4_arr m ρ c 2).trans (((dat1 (V2 m ρ) c).arrAt_in 2 rfl _).trans (A_eq1 (V2 m ρ) c 2))
    _ = W0 m ρ c (Proc.devRef .tc main_arg0) := (W2_arr m ρ c 0).trans (((dat0 (V0 m ρ) c).arrAt_in 0 rfl _).trans (A_eq0 (V0 m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W2 m ρ c (Proc.devRef .tc main_arg1) := (W4_arr m ρ c 0).trans (((dat1 (V2 m ρ) c).arrAt_in 0 rfl _).trans (A_eq1 (V2 m ρ) c 0))
    _ = W0 m ρ c (Proc.devRef .tc main_arg1) := W2_of_ne m ρ c main_arg1 (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W2 m ρ c (Proc.devRef .tc main_arg2) := W4_of_ne m ρ c main_arg2 (by decide)
    _ = W0 m ρ c (Proc.devRef .tc main_arg2) := (W2_arr m ρ c 1).trans (((dat0 (V0 m ρ) c).arrAt_in 1 rfl _).trans (A_eq0 (V0 m ρ) c 1))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W2 m ρ c (Proc.devRef .tc main_arg3) := W4_of_ne m ρ c main_arg3 (by decide)
    _ = W0 m ρ c (Proc.devRef .tc main_arg3) := (W2_arr m ρ c 2).trans (((dat0 (V0 m ρ) c).arrAt_in 2 rfl _).trans (A_eq0 (V0 m ρ) c 2))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W2 m ρ c (Proc.devRef .tc main_arg4) := (W4_arr m ρ c 3).trans (((dat1 (V2 m ρ) c).arrAt_in 3 rfl _).trans (A_eq1 (V2 m ρ) c 3))
    _ = W0 m ρ c (Proc.devRef .tc main_arg4) := W2_of_ne m ρ c main_arg4 (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W2 m ρ c (Proc.devRef .tc main_arg5) := (W4_arr m ρ c 4).trans (((dat1 (V2 m ρ) c).arrAt_in 4 rfl _).trans (A_eq1 (V2 m ρ) c 4))
    _ = W0 m ρ c (Proc.devRef .tc main_arg5) := W2_of_ne m ρ c main_arg5 (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W2 m ρ c (Proc.devRef .tc main_arg6) := (W4_arr m ρ c 5).trans (((dat1 (V2 m ρ) c).arrAt_in 5 rfl _).trans (A_eq1 (V2 m ρ) c 5))
    _ = W0 m ρ c (Proc.devRef .tc main_arg6) := W2_of_ne m ρ c main_arg6 (by decide)
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W2 m ρ c (Proc.devRef .tc main_arg7) := (W4_arr m ρ c 6).trans (((dat1 (V2 m ρ) c).arrAt_in 6 rfl _).trans (A_eq1 (V2 m ρ) c 6))
    _ = W0 m ρ c (Proc.devRef .tc main_arg7) := W2_of_ne m ρ c main_arg7 (by decide)
    _ = m ((c : Thread nD τ).loc main_arg7) := rfl

/-- The result array ends at what the aggregation pipeline's write-backs leave. -/
theorem W4_main_v1 (c : Dev nD) : W4 m ρ c (Proc.devRef .tc main_v1) = (dat1 (V2 m ρ) c).arrAt 7 cfg1.N :=
  W4_arr m ρ c 7

/-- The message array the aggregation kernel reads is what the message pipeline's write-backs leave. -/
theorem V2_main_v0 (c : Dev nD) : V2 m ρ c main_v0 = (dat0 (V0 m ρ) c).arrAt 3 cfg0.N :=
  W2_arr m ρ c 3

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's debts, at nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- Region 0 over the thread state: entered from every unscoped buffer at W0, left at W2. Its arrays are split
    out of the unscoped buffers and put back at the exit contents; the generator register goes into the invariant and
    comes out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W2, left at W4. Its arrays are split
    out of the unscoped buffers and put back at the exit contents; the generator register goes into the invariant and
    comes out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have hΦ : (pdats m ρ 1 c).Φ (Fin.last _) ⊢ Pipeline.ΦA spec1 c := hout1 (V2 m ρ) c
    unfold Pipeline.ΦA at hΦ
    refine hΦ.trans ?_
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's two segments in order. -/
abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state holds the result array at what the aggregation pipeline's write-backs leave and
    each argument array as launched. -/
theorem run_all : θ_run defs (onTc (τ := τ) (main (F := F))) ⟨m, fun _ => 0, ρ⟩ (fun r => ∀ c : Dev nD,
      r.2.mem ((c.tc : Thread nD τ).loc main_v1) = (dat1 (V2 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v1 (by decide))).trans (W4_main_v1 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

/-- THE FRAME: the arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_all m ρ)

end Cert.KernelIdeal.Frm

end
-- ==== Proof.KI.Pieces.lean ====
/-
  What each case of the aggregation kernel's body leaves, as values: the stores found by the run, read back. At a point
  whose reduction coordinate is zero the accumulators end at the tile's contribution added to the zero block; at the
  other points at the tile's contribution added to what the point before left, and the output block ends at the
  recurrent unit's update computed from those two new accumulator values and the row tile's old features.
-/
import proofs.«133597_j88648124989935_1_alg».proof.Proof.KI.Region1
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz1 : (![0] : Fin 1 → Nat) = fun _ => 0 := funext fun a => by fin_cases a; rfl

/-- Even point, weighted-sum accumulator: the zero block plus the tile's product. -/
theorem sout_A_0 (c : Dev nD) (i : grid1.Coords) (arg2 : Memref sig .tc .vmem S1024x4096 .i32) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S384x128 .f32) (harg5 : arg5.IsWhole) (arg6 : Memref sig .tc .vmem S384x128 .f32) (harg6 : arg6.IsWhole) (arg7 : Memref sig .tc .vmem S384 .f32) (harg7 : arg7.IsWhole) (arg8 : Memref sig .tc .vmem S384 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x1 .f32) (harg11 : arg11.IsWhole) (hc0 : cond1_0 i) (hc1 : ¬cond1_1 i) (x0 : Vec F S1024x4096 .i32) (x1 : Vec F S4096x128 .bf16) (x2 : Vec F S1024x128 .f32) (x3 : Vec F S384x128 .f32) (x4 : Vec F S384x128 .f32) (x5 : Vec F S384 .f32) (x6 : Vec F S384 .f32) :
    sout1_A_0 c i arg2 harg2 arg3 harg3 arg4 harg4 arg5 harg5 arg6 harg6 arg7 harg7 arg8 harg8 arg9 harg9 arg10 harg10 arg11 harg11 hc0 hc1 x0 x1 x2 x3 x4 x5 x6 = k1_pay3 x0 x1 (k1_pay1 (F := F)) := by
  unfold sout1_A_0
  rw [View.read_writes_eq_canon _ _ _ (scover1_A_0 c i arg2 harg2 arg3 harg3 arg4 harg4 arg5 harg5 arg6 harg6 arg7 harg7 arg8 harg8 arg9 harg9 arg10 harg10 arg11 harg11 hc0 hc1 x0 x1 x2 x3 x4 x5 x6)]
  unfold kernelRun1_A
  dsimp only
  sl_unfold_words
  rw [View.canon_cons_unit_zero (S := S1024x128) hz2, View.readCov_unit_zero (S := S1024x128) _ hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S1024x4096) hz2, View.ld_unit_zero (S := S4096x128) hz2, View.ld_unit_zero (S := S1024x128) hz2, View.ld_unit_zero (S := S384x128) hz2, View.ld_unit_zero (S := S384) hz1, View.ld_unit_zero (S := S1024x1) hz2]

/-- Even point, degree accumulator: the zero column plus the tile's row sums. -/
theorem sout_A_1 (c : Dev nD) (i : grid1.Coords) (arg2 : Memref sig .tc .vmem S1024x4096 .i32) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S384x128 .f32) (harg5 : arg5.IsWhole) (arg6 : Memref sig .tc .vmem S384x128 .f32) (harg6 : arg6.IsWhole) (arg7 : Memref sig .tc .vmem S384 .f32) (harg7 : arg7.IsWhole) (arg8 : Memref sig .tc .vmem S384 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x1 .f32) (harg11 : arg11.IsWhole) (hc0 : cond1_0 i) (hc1 : ¬cond1_1 i) (x0 : Vec F S1024x4096 .i32) (x1 : Vec F S4096x128 .bf16) (x2 : Vec F S1024x128 .f32) (x3 : Vec F S384x128 .f32) (x4 : Vec F S384x128 .f32) (x5 : Vec F S384 .f32) (x6 : Vec F S384 .f32) :
    sout1_A_1 c i arg2 harg2 arg3 harg3 arg4 harg4 arg5 harg5 arg6 harg6 arg7 harg7 arg8 harg8 arg9 harg9 arg10 harg10 arg11 harg11 hc0 hc1 x0 x1 x2 x3 x4 x5 x6 = k1_pay4 x0 (k1_pay2 (F := F)) := by
  unfold sout1_A_1
  rw [View.read_writes_eq_canon _ _ _ (scover1_A_1 c i arg2 harg2 arg3 harg3 arg4 harg4 arg5 harg5 arg6 harg6 arg7 harg7 arg8 harg8 arg9 harg9 arg10 harg10 arg11 harg11 hc0 hc1 x0 x1 x2 x3 x4 x5 x6)]
  unfold kernelRun1_A
  dsimp only
  sl_unfold_words
  rw [View.canon_cons_unit_zero (S := S1024x1) hz2, View.readCov_unit_zero (S := S1024x1) _ hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S1024x4096) hz2, View.ld_unit_zero (S := S4096x128) hz2, View.ld_unit_zero (S := S1024x128) hz2, View.ld_unit_zero (S := S384x128) hz2, View.ld_unit_zero (S := S384) hz1, View.ld_unit_zero (S := S1024x1) hz2]

/-- Odd point, weighted-sum accumulator: what the point before left plus the tile's product. -/
theorem sout_C_0 (c : Dev nD) (i : grid1.Coords) (arg2 : Memref sig .tc .vmem S1024x4096 .i32) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S384x128 .f32) (harg5 : arg5.IsWhole) (arg6 : Memref sig .tc .vmem S384x128 .f32) (harg6 : arg6.IsWhole) (arg7 : Memref sig .tc .vmem S384 .f32) (harg7 : arg7.IsWhole) (arg8 : Memref sig .tc .vmem S384 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x1 .f32) (harg11 : arg11.IsWhole) (hc0 : ¬cond1_0 i) (hc1 : cond1_1 i) (x0 : Vec F S1024x4096 .i32) (x1 : Vec F S4096x128 .bf16) (x2 : Vec F S1024x128 .f32) (x3 : Vec F S384x128 .f32) (x4 : Vec F S384x128 .f32) (x5 : Vec F S384 .f32) (x6 : Vec F S384 .f32) (xs0 : Vec F S1024x128 .f32) (xs1 : Vec F S1024x1 .f32) :
    sout1_C_0 c i arg2 harg2 arg3 harg3 arg4 harg4 arg5 harg5 arg6 harg6 arg7 harg7 arg8 harg8 arg9 harg9 arg10 harg10 arg11 harg11 hc0 hc1 x0 x1 x2 x3 x4 x5 x6 xs0 xs1 = k1_pay3 x0 x1 xs0 := by
  unfold sout1_C_0
  rw [View.read_writes_eq_canon _ _ _ (scover1_C_0 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun1_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S1024x4096) hz2, View.ld_unit_zero (S := S4096x128) hz2, View.ld_unit_zero (S := S1024x128) hz2, View.ld_unit_zero (S := S384x128) hz2, View.ld_unit_zero (S := S384) hz1, View.ld_unit_zero (S := S1024x1) hz2]

/-- Odd point, degree accumulator: what the point before left plus the tile's row sums. -/
theorem sout_C_1 (c : Dev nD) (i : grid1.Coords) (arg2 : Memref sig .tc .vmem S1024x4096 .i32) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S384x128 .f32) (harg5 : arg5.IsWhole) (arg6 : Memref sig .tc .vmem S384x128 .f32) (harg6 : arg6.IsWhole) (arg7 : Memref sig .tc .vmem S384 .f32) (harg7 : arg7.IsWhole) (arg8 : Memref sig .tc .vmem S384 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x1 .f32) (harg11 : arg11.IsWhole) (hc0 : ¬cond1_0 i) (hc1 : cond1_1 i) (x0 : Vec F S1024x4096 .i32) (x1 : Vec F S4096x128 .bf16) (x2 : Vec F S1024x128 .f32) (x3 : Vec F S384x128 .f32) (x4 : Vec F S384x128 .f32) (x5 : Vec F S384 .f32) (x6 : Vec F S384 .f32) (xs0 : Vec F S1024x128 .f32) (xs1 : Vec F S1024x1 .f32) :
    sout1_C_1 c i arg2 harg2 arg3 harg3 arg4 harg4 arg5 harg5 arg6 harg6 arg7 harg7 arg8 harg8 arg9 harg9 arg10 harg10 arg11 harg11 hc0 hc1 x0 x1 x2 x3 x4 x5 x6 xs0 xs1 = k1_pay4 x0 xs1 := by
  unfold sout1_C_1
  rw [View.read_writes_eq_canon _ _ _ (scover1_C_1 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun1_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S1024x4096) hz2, View.ld_unit_zero (S := S4096x128) hz2, View.ld_unit_zero (S := S1024x128) hz2, View.ld_unit_zero (S := S384x128) hz2, View.ld_unit_zero (S := S384) hz1, View.ld_unit_zero (S := S1024x1) hz2]

/-- Odd point, output block: the recurrent unit's update from the two new accumulator values, the old features,
    the two weight matrices and the two bias vectors. -/
theorem out_C_7 (c : Dev nD) (i : grid1.Coords) (arg2 : Memref sig .tc .vmem S1024x4096 .i32) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S384x128 .f32) (harg5 : arg5.IsWhole) (arg6 : Memref sig .tc .vmem S384x128 .f32) (harg6 : arg6.IsWhole) (arg7 : Memref sig .tc .vmem S384 .f32) (harg7 : arg7.IsWhole) (arg8 : Memref sig .tc .vmem S384 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x1 .f32) (harg11 : arg11.IsWhole) (hc0 : ¬cond1_0 i) (hc1 : cond1_1 i) (x0 : Vec F S1024x4096 .i32) (x1 : Vec F S4096x128 .bf16) (x2 : Vec F S1024x128 .f32) (x3 : Vec F S384x128 .f32) (x4 : Vec F S384x128 .f32) (x5 : Vec F S384 .f32) (x6 : Vec F S384 .f32) (xs0 : Vec F S1024x128 .f32) (xs1 : Vec F S1024x1 .f32) :
    out1_C_7 c i arg2 harg2 arg3 harg3 arg4 harg4 arg5 harg5 arg6 harg6 arg7 harg7 arg8 harg8 arg9 harg9 arg10 harg10 arg11 harg11 hc0 hc1 x0 x1 x2 x3 x4 x5 x6 xs0 xs1 = k1_pay5 (k1_pay4 x0 xs1) (k1_pay3 x0 x1 xs0) x2 x3 x5 x4 x6 := by
  unfold out1_C_7
  rw [View.read_writes_eq_canon _ _ _ (cover1_C_7 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun1_C
  dsimp only
  sl_unfold_words
  rw [View.canon_unit_zero hz2, View.readCov_unit_zero (S := S1024x1) _ hz2, View.readCov_unit_zero (S := S1024x128) _ hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S1024x4096) hz2, View.ld_unit_zero (S := S4096x128) hz2, View.ld_unit_zero (S := S1024x128) hz2, View.ld_unit_zero (S := S384x128) hz2, View.ld_unit_zero (S := S384) hz1, View.ld_unit_zero (S := S1024x1) hz2]

end Cert.KernelIdeal.Frm

end
-- ==== Proof.Spec.lean ====
/-
  The mathematics both programs compute, index by index, on the extended reals.

  A graph layer: every node j sends the message  msg j = relu (x j · w_msgᵀ + b_msg);  node i averages the
  messages of its neighbours, weighted by the integer adjacency entries and divided by its degree clipped below at one;
  a gated recurrent unit then updates the node's features from that average (as input) and its old features (as state).
  Everything is stated over literal shapes, an index built from its coordinates.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- A real matrix, a real vector, an integer matrix, as functions of an index of literal shape. -/
abbrev M (a b : Nat) : Type := (⟨2, ![a, b]⟩ : Shape).Idx → EReal
abbrev V (a : Nat) : Type := (⟨1, ![a]⟩ : Shape).Idx → EReal
abbrev Z (a b : Nat) : Type := (⟨2, ![a, b]⟩ : Shape).Idx → BitVec 32

/-- The literal one both programs clip the degree with and subtract the update gate from. -/
def one : EReal := Ideal.ofBits .f32 0x3F800000#32

/-- Node j's message, channel c: relu of an affine map of its features. -/
def msg (x : M 8192 128) (w : M 128 128) (b : V 128) (j : Fin 8192) (c : Fin 128) : EReal :=
  max ((∑ k : Fin 128, x (ix2 j k) * w (ix2 c k)) + b (ix1 c)) 0

/-- The adjacency entry (i, j) as a real number: the integer, read signed. -/
def adjf (adj : Z 8192 8192) (i j : Fin 8192) : EReal := (((adj (ix2 i j)).toInt : ℝ) : EReal)

/-- Node i's degree: the sum of its adjacency row. -/
def deg (adj : Z 8192 8192) (i : Fin 8192) : EReal := ∑ j : Fin 8192, adjf adj i j

/-- The adjacency-weighted sum of the messages reaching node i, channel c. -/
def acc (x : M 8192 128) (adj : Z 8192 8192) (w : M 128 128) (b : V 128) (i : Fin 8192) (c : Fin 128) : EReal :=
  ∑ j : Fin 8192, adjf adj i j * msg x w b j c

/-- The mean message: the weighted sum over the degree clipped below at one. -/
def agg (x : M 8192 128) (adj : Z 8192 8192) (w : M 128 128) (b : V 128) (i : Fin 8192) (c : Fin 128) : EReal :=
  Ideal.div (acc x adj w b i c) (max (deg adj i) one)

/-- Gate pre-activations: an affine map of a row a of 128 numbers, slot g of 384. -/
def gates (a : Fin 128 → EReal) (wmat : M 384 128) (bias : V 384) (g : Fin 384) : EReal :=
  (∑ c : Fin 128, a c * wmat (ix2 g c)) + bias (ix1 g)

/-- The three gate slots of channel e among the 384 pre-activations. -/
def g0 (e : Fin 128) : Fin 384 := ⟨e.val, by omega⟩
def g1 (e : Fin 128) : Fin 384 := ⟨128 + e.val, by omega⟩
def g2 (e : Fin 128) : Fin 384 := ⟨256 + e.val, by omega⟩

/-- One gated recurrent unit, channel e, from an input row a and a state row h: with reset gate r, update gate z
    and candidate n, the new state is (1 - z) · n + z · h. -/
def gru (a h : Fin 128 → EReal) (wih whh : M 384 128) (bih bhh : V 384) (e : Fin 128) : EReal :=
  let r := Ideal.logistic (gates a wih bih (g0 e) + gates h whh bhh (g0 e))
  let z := Ideal.logistic (gates a wih bih (g1 e) + gates h whh bhh (g1 e))
  let n := Ideal.tanh (gates a wih bih (g2 e) + r * gates h whh bhh (g2 e))
  (one - z) * n + z * h e

/-- The updated features of node i, channel e: the unit fed the node's mean message, its state the node's old features. -/
def G (x : M 8192 128) (adj : Z 8192 8192) (w : M 128 128) (b : V 128) (wih whh : M 384 128) (bih bhh : V 384)
    (i : Fin 8192) (e : Fin 128) : EReal :=
  gru (fun c => agg x adj w b i c) (fun c => x (ix2 i c)) wih whh bih bhh e

end Cert.Spec

end
-- ==== Proof.Payloads.lean ====
/-
  The kernel bodies' arithmetic, read at one index of the block each stores, on the extended reals.

  Every pointwise operation reads through to its operands' elements; the layout operations (a transpose, a bias row
  or a degree column broadcast over a block, a slice of the 384 gate columns) each read one element of their operand;
  a matrix product into the zero block is the sum over the contracted coordinate, and a sum along the lanes is the sum
  over the row's coordinates. Put together, each stored block is, element by element, the specification's formula.
-/
import proofs.«133597_j88648124989935_1_alg».proof.Proof.Gen.KernelIdeal.Skeleton
import proofs.«133597_j88648124989935_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelValue

open Cert.KernelIdeal Cert.KernelIdeal.Gen Idealize.ShloMosaic Idealize.ShloMosaic.ValueIdx

/-! ## The operations that are not pointwise, each read at an index given by coordinates -/

/-- A product of an m × k matrix by a k × n matrix, accumulated into the zero block, reads at (p, q) the sum over the
    contracted coordinate c of the products of the elements at (p, c) and (c, q). -/
theorem matmul_zero_apply {m k n : Nat} {φ₁ φ₂ : FTy}
    (D : DotDims ⟨2, ![m, k]⟩ ⟨2, ![k, n]⟩ ⟨2, ![m, n]⟩)
    (hlc : D.lhsContracting = [1]) (hrc : D.rhsContracting = [0])
    (hln : D.lhsNonContracting = [0]) (hrn : D.rhsNonContracting = [1])
    (hlb : D.lhsBatch = []) (hrb : D.rhsBatch = [])
    (A : FVec Ideal ⟨2, ![m, k]⟩ φ₁) (B : FVec Ideal ⟨2, ![k, n]⟩ φ₂) (p : Fin m) (q : Fin n) :
    matmul D none A B (constant (F := Ideal) ⟨2, ![m, n]⟩ .f32 0x00000000#32) (ix2 p q)
      = ∑ c : Fin k, A (ix2 p c) * B (ix2 c q) := by
  obtain ⟨lc, rc, ln, rn, lb, rb, wf⟩ := D
  simp only at hlc hrc hln hrn hlb hrb
  subst hlc hrc hln hrn hlb hrb
  refine (Ideal.matmul_constant_zero_apply _ none A B (ix2 p q)).trans ?_
  rw [← Equiv.sum_comp (contrEquiv1 (⟨[1], [0], [0], [1], [], [], wf⟩ : DotDims ⟨2, ![m, k]⟩ ⟨2, ![k, n]⟩ ⟨2, ![m, n]⟩) k rfl rfl).symm]
  refine Finset.sum_congr rfl fun c _ => ?_
  have hc := contrEquiv1_symm_val (⟨[1], [0], [0], [1], [], [], wf⟩ : DotDims ⟨2, ![m, k]⟩ ⟨2, ![k, n]⟩ ⟨2, ![m, n]⟩) k rfl rfl c
  have el : (⟨[1], [0], [0], [1], [], [], wf⟩ : DotDims ⟨2, ![m, k]⟩ ⟨2, ![k, n]⟩ ⟨2, ![m, n]⟩).lhsIdx (ix2 p q)
      ((contrEquiv1 (⟨[1], [0], [0], [1], [], [], wf⟩ : DotDims ⟨2, ![m, k]⟩ ⟨2, ![k, n]⟩ ⟨2, ![m, n]⟩) k rfl rfl).symm c) = ix2 p c :=
    funext fun a => Fin.ext (by
      match a with
      | ⟨0, _⟩ =>
        show ((⟨[1], [0], [0], [1], [], [], wf⟩ : DotDims ⟨2, ![m, k]⟩ ⟨2, ![k, n]⟩ ⟨2, ![m, n]⟩).lhsIdx (ix2 p q) _ 0).val = p.val
        unfold DotDims.lhsIdx
        rw [dif_neg List.not_mem_nil, dif_pos (show (0 : Fin 2) ∈ [(0 : Fin 2)] from List.mem_singleton.mpr rfl)]
        rfl
      | ⟨1, _⟩ => exact (DotDims.lhsIdx_val_of_single _ rfl _ _).trans hc)
  have er : (⟨[1], [0], [0], [1], [], [], wf⟩ : DotDims ⟨2, ![m, k]⟩ ⟨2, ![k, n]⟩ ⟨2, ![m, n]⟩).rhsIdx (ix2 p q)
      ((contrEquiv1 (⟨[1], [0], [0], [1], [], [], wf⟩ : DotDims ⟨2, ![m, k]⟩ ⟨2, ![k, n]⟩ ⟨2, ![m, n]⟩) k rfl rfl).symm c) = ix2 c q :=
    funext fun a => Fin.ext (by
      match a with
      | ⟨0, _⟩ => exact (DotDims.rhsIdx_val_of_single _ rfl _ _).trans hc
      | ⟨1, _⟩ =>
        show ((⟨[1], [0], [0], [1], [], [], wf⟩ : DotDims ⟨2, ![m, k]⟩ ⟨2, ![k, n]⟩ ⟨2, ![m, n]⟩).rhsIdx (ix2 p q) _ 1).val = q.val
        unfold DotDims.rhsIdx
        rw [dif_neg List.not_mem_nil, dif_pos (show (1 : Fin 2) ∈ [(1 : Fin 2)] from List.mem_singleton.mpr rfl)]
        rfl)
  rw [el, er]

/-- The same product against a TRANSPOSED n × k matrix W: at (p, q) the sum over c of A (p, c) · W (q, c). -/
theorem matmul_zero_transpose_apply {m k n : Nat} {φ₁ φ₂ : FTy}
    (D : DotDims ⟨2, ![m, k]⟩ ⟨2, ![k, n]⟩ ⟨2, ![m, n]⟩)
    (hlc : D.lhsContracting = [1]) (hrc : D.rhsContracting = [0])
    (hln : D.lhsNonContracting = [0]) (hrn : D.rhsNonContracting = [1])
    (hlb : D.lhsBatch = []) (hrb : D.rhsBatch = [])
    (A : FVec Ideal ⟨2, ![m, k]⟩ φ₁) (W : FVec Ideal ⟨2, ![n, k]⟩ φ₂)
    (ht : (⟨2, ![n, k]⟩ : Shape).Transposes [1, 0] ⟨2, ![k, n]⟩) (p : Fin m) (q : Fin n) :
    matmul D none A (transpose ⟨2, ![k, n]⟩ [1, 0] W ht) (constant (F := Ideal) ⟨2, ![m, n]⟩ .f32 0x00000000#32) (ix2 p q)
      = ∑ c : Fin k, A (ix2 p c) * W (ix2 q c) :=
  (matmul_zero_apply D hlc hrc hln hrn hlb hrb A _ p q).trans
    (Finset.sum_congr rfl fun c _ => congrArg (A (ix2 p c) * ·) (transpose_ix2_apply W ht c q))

/-- A vector of b numbers laid as one row and repeated over a rows reads, at (p, c), its element c. -/
theorem biasRow_apply {α : Type} {a b : Nat} (v : (⟨1, ![b]⟩ : Shape).Idx → α)
    (hs : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ v hs) hb (ix2 p c) = v (ix1 c) :=
  (broadcastTo_1b_ab_apply _ hb p c).trans (shapeCast_a_1a_apply v hs 0 c)

/-- A vector of a numbers laid as one column reads, at (r, u), its element r. -/
theorem shapeCast_a_a1_apply {α : Type} {a : Nat} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- One column repeated over b columns reads, at (p, c), the column's element p. -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum along the lanes of an a × b block, from the zero accumulator, reads at row r the sum of that row. -/
theorem laneSum_apply {a b : Nat} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (r : Fin a) :
    multiReduction (F := Ideal) .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src ?_
  funext c
  apply Fin.ext
  match c with
  | ⟨0, _⟩ => rfl
  | ⟨1, _⟩ => rfl

/-! ## Three more pointwise operations read at an index -/

/-- A logistic of a block reads the logistic of the element. -/
theorem logistic_apply {s : Shape} {φ : FTy} (a : FVec Ideal s φ) (i : s.Idx) : logistic a i = Ideal.logistic (a i) := rfl
/-- A hyperbolic tangent of a block reads that of the element. -/
theorem tanh_apply {s : Shape} {φ : FTy} (a : FVec Ideal s φ) (i : s.Idx) : tanh a i = Ideal.tanh (a i) := rfl
/-- An integer block converted to a float format reads the integer, signed, as a real number. -/
theorem sitofp_int_apply {s : Shape} {φ : FTy} {w : Nat} (x : IVec s w) (i : s.Idx) :
    (sitofp φ x : FVec Ideal s φ) i = (((x i).toInt : ℝ) : EReal) := rfl

/-! ## The message kernel's block and the zeroed accumulators -/

/-- The zeroed message accumulator is 0 at every index. -/
theorem pay_acc0 (p : Fin 1024) (q : Fin 128) : k1_pay1 (F := Ideal) (ix2 p q) = 0 := by
  unfold k1_pay1
  refine (congrFun (shapeCast_self _ _) (ix2 p q)).trans ?_
  exact Ideal.ofBits_zero_f32

/-- The zeroed degree accumulator is 0 at every index. -/
theorem pay_deg0 (p : Fin 1024) (q : Fin 1) : k1_pay2 (F := Ideal) (ix2 p q) = 0 := by
  unfold k1_pay2
  refine (congrFun (shapeCast_self _ _) (ix2 p q)).trans ?_
  exact Ideal.ofBits_zero_f32

/-- The message block at (p, q): relu of the row p of the features against row q of the weights, plus the bias at q. -/
theorem pay_msg (v0 : Vec Ideal S2048x128 .f32) (v2 : Vec Ideal S128x128 .f32) (v6 : Vec Ideal S128 .f32)
    (p : Fin 2048) (q : Fin 128) :
    k0_pay1 (F := Ideal) v0 v2 v6 (ix2 p q)
      = max ((∑ k : Fin 128, v0 (ix2 p k) * v2 (ix2 q k)) + v6 (ix1 q)) 0 := by
  unfold k0_pay1
  simp only [truncf_apply, maximumf_apply, addf_apply, broadcast_apply]
  rw [matmul_zero_transpose_apply _ rfl rfl rfl rfl rfl rfl, biasRow_apply]
  exact congrArg (max _) Ideal.ofBits_zero_f32

/-! ## The accumulation steps -/

/-- The adjacency block times the message block, into the zero block: at (p, q) the sum over the 4096 columns. -/
theorem matmul_acc_apply (A : FVec Ideal S1024x4096 .bf16) (B : FVec Ideal S4096x128 .bf16) (p : Fin 1024) (q : Fin 128) :
    matmul dot_S1024x4096_S4096x128_S1024x128_1_0_0_1_n_n none A B (constant (F := Ideal) S1024x128 .f32 0x00000000#32) (ix2 p q)
      = ∑ c : Fin 4096, A (ix2 p c) * B (ix2 c q) :=
  matmul_zero_apply _ rfl rfl rfl rfl rfl rfl A B p q

/-- One accumulation step at (p, q): the old value plus the sum over the 4096 columns k of the adjacency entry (p, k),
    read signed, times the message (k, q). -/
theorem pay_acc (v3 : Vec Ideal S1024x4096 .i32) (v5 : Vec Ideal S4096x128 .bf16) (v7 : Vec Ideal S1024x128 .f32)
    (p : Fin 1024) (q : Fin 128) :
    k1_pay3 (F := Ideal) v3 v5 v7 (ix2 p q)
      = v7 (ix2 p q) + ∑ k : Fin 4096, (((v3 (ix2 p k)).toInt : ℝ) : EReal) * v5 (ix2 k q) := by
  unfold k1_pay3
  simp only [shapeCast_self, addf_apply]
  rw [matmul_acc_apply]
  rfl

/-- One degree step at row p: the old value plus the sum of the adjacency row's 4096 entries, read signed. -/
theorem pay_deg (v3 : Vec Ideal S1024x4096 .i32) (v13 : Vec Ideal S1024x1 .f32) (p : Fin 1024) (q : Fin 1) :
    k1_pay4 (F := Ideal) v3 v13 (ix2 p q)
      = v13 (ix2 p q) + ∑ k : Fin 4096, (((v3 (ix2 p k)).toInt : ℝ) : EReal) := by
  unfold k1_pay4
  simp only [shapeCast_self, addf_apply]
  rw [shapeCast_a_a1_apply]
  exact congrArg (v13 (ix2 p q) + ·) (laneSum_apply _ _ _ _ p)

/-! ## The epilogue: the mean message through the gated recurrent unit -/

/-- A block of 128-wide rows times the transposed 384 × 128 weights, into the zero block: at (p, g) the sum over the
    128 channels c of the row's element c times the weight at (g, c). -/
theorem matmul_gate_apply (A : FVec Ideal S1024x128 .f32) (w : FVec Ideal S384x128 .f32)
    (ht : S384x128.Transposes [1, 0] S128x384) (p : Fin 1024) (g : Fin 384) :
    matmul dot_S1024x128_S128x384_S1024x384_1_0_0_1_n_n none A (transpose S128x384 [1, 0] w ht)
        (constant (F := Ideal) S1024x384 .f32 0x00000000#32) (ix2 p g)
      = ∑ c : Fin 128, A (ix2 p c) * w (ix2 g c) :=
  matmul_zero_transpose_apply _ rfl rfl rfl rfl rfl rfl A w ht p g

/-- The first 128 of the 384 columns: column e is slot g0 e. -/
theorem gateSlice0 {α : Type} (X : S1024x384.Idx → α) (h : S1024x384.Slices ![0, 0] S1024x128) (p : Fin 1024) (e : Fin 128) :
    extractStridedSlice S1024x128 ![0, 0] X h (ix2 p e) = X (ix2 p (Cert.Spec.g0 e)) :=
  slice2_axis1_apply 0 X h p e (Cert.Spec.g0 e) (Nat.zero_add _).symm
/-- The middle 128 columns: column e is slot g1 e. -/
theorem gateSlice1 {α : Type} (X : S1024x384.Idx → α) (h : S1024x384.Slices ![0, 128] S1024x128) (p : Fin 1024) (e : Fin 128) :
    extractStridedSlice S1024x128 ![0, 128] X h (ix2 p e) = X (ix2 p (Cert.Spec.g1 e)) :=
  slice2_axis1_apply 128 X h p e (Cert.Spec.g1 e) rfl
/-- The last 128 columns: column e is slot g2 e. -/
theorem gateSlice2 {α : Type} (X : S1024x384.Idx → α) (h : S1024x384.Slices ![0, 256] S1024x128) (p : Fin 1024) (e : Fin 128) :
    extractStridedSlice S1024x128 ![0, 256] X h (ix2 p e) = X (ix2 p (Cert.Spec.g2 e)) :=
  slice2_axis1_apply 256 X h p e (Cert.Spec.g2 e) rfl

/-- The epilogue at (p, e): the gated recurrent unit's channel e, its input row the accumulated sums of node p divided
    by the degree clipped below at one, its state row the node's old features. -/
theorem pay_out (v24 : Vec Ideal S1024x1 .f32) (v27 v30 : Vec Ideal S1024x128 .f32) (v31 : Vec Ideal S384x128 .f32)
    (v34 : Vec Ideal S384 .f32) (v38 : Vec Ideal S384x128 .f32) (v41 : Vec Ideal S384 .f32) (p : Fin 1024) (e : Fin 128) :
    k1_pay5 (F := Ideal) v24 v27 v30 v31 v34 v38 v41 (ix2 p e)
      = Cert.Spec.gru (fun c => Ideal.div (v27 (ix2 p c)) (max (v24 (ix2 p (0 : Fin 1))) Cert.Spec.one))
          (fun c => v30 (ix2 p c)) v31 v38 v34 v41 e := by
  unfold k1_pay5
  simp only [addf_apply, mulf_apply, subf_apply, logistic_apply, tanh_apply, broadcast_apply,
    gateSlice0, gateSlice1, gateSlice2, biasRow_apply]
  rw [matmul_gate_apply, matmul_gate_apply, matmul_gate_apply, matmul_gate_apply, matmul_gate_apply, matmul_gate_apply]
  simp only [divf_apply, broadcastTo_a1_ab_apply, maximumf_apply, broadcast_apply]
  rfl

end Cert.KernelValue

end
-- ==== Proof.KI.Value0.lean ====
/-
  The message array. Point t of the message kernel reads rows 2048 t … 2048 t + 2047 of the node features with the
  whole weight matrix and bias, and writes the same rows of the messages: entry (2048 t + p, q) is
  relu (Σ_k x(2048 t + p, k) · w(q, k) + b(q)). The four row blocks tile the array, so after the run the array holds
  the message of every node.
-/
import proofs.«133597_j88648124989935_1_alg».proof.Proof.KI.Run
import proofs.«133597_j88648124989935_1_alg».proof.Proof.KI.Pieces
import proofs.«133597_j88648124989935_1_alg».proof.Proof.Payloads
import proofs.«133597_j88648124989935_1_alg».proof.Proof.Spec
import Idealize.ShloMosaic.Lib.Pipeline.Value

set_option maxRecDepth 16384

noncomputable section

open scoped BigOperators

namespace Cert.KernelIdeal.Val

open Cert.KernelIdeal Cert.KernelIdeal.Gen Cert.KernelIdeal.Frm Cert.KernelValue
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The messages of all nodes, as contents of the message array. -/
def Gmsg (c : Dev nD) : Buf (Elt Ideal) ((c : Thread nD τ).loc main_v0) :=
  fun j => Cert.Spec.msg (m ((c : Thread nD τ).loc main_arg0)) (m ((c : Thread nD τ).loc main_arg2)) (m ((c : Thread nD τ).loc main_arg3)) (j 0) (j 1)

/-- One entry of a stored block: the body's arithmetic on blocks that are rows r … of the features, the whole weight
    matrix and the whole bias is the message of node r. -/
theorem msg_block (x0 : Vec Ideal S2048x128 .f32) (x1 : Vec Ideal S128x128 .f32) (x2 : Vec Ideal S128 .f32)
    (X : Cert.Spec.M 8192 128) (Wt : Cert.Spec.M 128 128) (B : Cert.Spec.V 128) (r : Fin 8192) (p : Fin 2048) (q : Fin 128)
    (h0 : ∀ k : Fin 128, x0 (ix2 p k) = X (ix2 r k)) (h1 : ∀ k : Fin 128, x1 (ix2 q k) = Wt (ix2 q k)) (h2 : x2 (ix1 q) = B (ix1 q)) :
    k0_pay1 (F := Ideal) x0 x1 x2 (ix2 p q) = Cert.Spec.msg X Wt B r q := by
  rw [pay_msg]; unfold Cert.Spec.msg; simp only [h0, h1, h2]

/-- The printed index maps, decided over the grid: the feature and message windows sit at row block t, the weight and
    bias windows at block zero. -/
theorem idx0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- What point t writes back is block t of the messages. -/
theorem flushed0_eq (c : Dev nD) (t : Fin cfg0.N) :
    (dat0 (V0 m ρ) c).flushed 3 t = ((cfg0.win 3).blk t).view.read (Elt Ideal) (Gmsg m c) := by
  show (cfg0.win 3).cut (grid0.coords t) ((dat0 (V0 m ρ) c).after 3 t) = _
  rw [after0_3]
  unfold out0_3
  rw [View.canon_unit_zero hz2]
  simp only [View.ld_unit_zero (S := S2048x128) hz2, View.ld_unit_zero (S := S128x128) hz2, View.ld_unit_zero (S := S128) hz1]
  obtain ⟨e0, e1, e2, e3, e4, e5, e6⟩ := idx0 t
  have hN : t.val < 4 := lt_of_lt_of_eq t.isLt N_0
  funext j
  obtain ⟨p, q, rfl⟩ : ∃ (p : Fin 2048) (q : Fin 128), j = ix2 p q := ⟨j 0, j 1, eq_ix2 j⟩
  have hp : p.val < 2048 := p.isLt
  have hq : q.val < 128 := q.isLt
  have hr : (((cfg0.win 3).blk t).view.emb (ix2 p q)) = ix2 (⟨2048 * t.val + p.val, by omega⟩ : Fin 8192) q := by
    funext a; apply Fin.ext
    match a with
    | ⟨0, _⟩ => show win0_3.index t (0 : Fin 2) * 2048 + 1 * p.val = 2048 * t.val + p.val; omega
    | ⟨1, _⟩ => show win0_3.index t (1 : Fin 2) * 128 + 1 * q.val = q.val; omega
  show k0_pay1 (F := Ideal) (iblk0 (V0 m ρ) c 0 t) (iblk0 (V0 m ρ) c 1 t) (iblk0 (V0 m ρ) c 2 t) (ix2 p q) = Gmsg m c (((cfg0.win 3).blk t).view.emb (ix2 p q))
  rw [hr]
  refine msg_block (iblk0 (V0 m ρ) c 0 t) (iblk0 (V0 m ρ) c 1 t) (iblk0 (V0 m ρ) c 2 t) (m ((c : Thread nD τ).loc main_arg0)) (m ((c : Thread nD τ).loc main_arg2)) (m ((c : Thread nD τ).loc main_arg3)) ⟨2048 * t.val + p.val, by omega⟩ p q ?_ ?_ ?_
  · intro k
    have hk : k.val < 128 := k.isLt
    show m ((c : Thread nD τ).loc main_arg0) (((cfg0.win 0).blk t).view.emb (ix2 p k)) = m ((c : Thread nD τ).loc main_arg0) (ix2 (⟨2048 * t.val + p.val, by omega⟩ : Fin 8192) k)
    refine congrArg (m ((c : Thread nD τ).loc main_arg0)) ?_
    funext a; apply Fin.ext
    match a with
    | ⟨0, _⟩ => show win0_0.index t (0 : Fin 2) * 2048 + 1 * p.val = 2048 * t.val + p.val; omega
    | ⟨1, _⟩ => show win0_0.index t (1 : Fin 2) * 128 + 1 * k.val = k.val; omega
  · intro k
    have hk : k.val < 128 := k.isLt
    show m ((c : Thread nD τ).loc main_arg2) (((cfg0.win 1).blk t).view.emb (ix2 q k)) = m ((c : Thread nD τ).loc main_arg2) (ix2 q k)
    refine congrArg (m ((c : Thread nD τ).loc main_arg2)) ?_
    funext a; apply Fin.ext
    match a with
    | ⟨0, _⟩ => show win0_1.index t (0 : Fin 2) * 128 + 1 * q.val = q.val; omega
    | ⟨1, _⟩ => show win0_1.index t (1 : Fin 2) * 128 + 1 * k.val = k.val; omega
  · show m ((c : Thread nD τ).loc main_arg3) (((cfg0.win 2).blk t).view.emb (ix1 q)) = m ((c : Thread nD τ).loc main_arg3) (ix1 q)
    refine congrArg (m ((c : Thread nD τ).loc main_arg3)) ?_
    funext a; apply Fin.ext
    match a with
    | ⟨0, _⟩ => show win0_2.index t (0 : Fin 1) * 128 + 1 * q.val = q.val; omega

/-- An index of the message array is in point t's block iff each coordinate is in the block's range on its axis. -/
theorem mem_blk0 (t : Fin cfg0.N) (i : S8192x128.Idx) :
    i ∈ ((cfg0.win 3).blk t).view.set ↔ ∀ a : Fin 2, win0_3.index t a * S2048x128.size a ≤ (i a).val ∧ (i a).val < win0_3.index t a * S2048x128.size a + S2048x128.size a := by
  show i ∈ ((View.whole main_v0).slice (win0_3.rect t)).set ↔ _
  rw [View.set_slice_whole, Rect.mem_set_unit]
  exact Iff.rfl

/-- The message array after the run holds every node's message: row r is written by point r / 2048. -/
theorem final0 (c : Dev nD) : (dat0 (V0 m ρ) c).arrAt 3 cfg0.N = Gmsg m c :=
  (dat0 (V0 m ρ) c).arrAt_eq_of_cover 3 (Gmsg m c) (fun t _ => flushed0_eq m ρ c t) fun i => by
    have hi0 : (i 0).val < 8192 := (i 0).isLt
    have hi1 : (i 1).val < 128 := (i 1).isLt
    refine ⟨⟨(i 0).val / 2048, by rw [show cfg0.N = 4 from N_0]; omega⟩, flush0_3 _, ?_⟩
    rw [mem_blk0]
    obtain ⟨e0, e1, e2, e3, e4, e5, e6⟩ := idx0 ⟨(i 0).val / 2048, by rw [show cfg0.N = 4 from N_0]; omega⟩
    intro a
    match a with
    | ⟨0, _⟩ => show win0_3.index _ (0 : Fin 2) * 2048 ≤ (i 0).val ∧ (i 0).val < win0_3.index _ (0 : Fin 2) * 2048 + 2048
                rw [e5]; dsimp only; omega
    | ⟨1, _⟩ => show win0_3.index _ (1 : Fin 2) * 128 ≤ (i 1).val ∧ (i 1).val < win0_3.index _ (1 : Fin 2) * 128 + 128
                rw [e6]; omega

end Cert.KernelIdeal.Val

end
-- ==== Proof.Math.lean ====
/-
  The one law that joins the two programs: a sum over 8192 neighbours is the sum over the first 4096 plus the sum over
  the last 4096 — on the extended reals, where addition is commutative and associative (no cancellation is needed, so
  nothing has to be finite). With it the weighted message sum and the degree, accumulated tile by tile from zero, are
  the whole sums.
-/
import proofs.«133597_j88648124989935_1_alg».proof.Proof.Spec

noncomputable section

open scoped BigOperators

namespace Cert.Spec

open Idealize.ShloMosaic Idealize.ShloMosaic.ValueIdx

/-- The first and the second half of the neighbours. -/
def lo (k : Fin 4096) : Fin 8192 := ⟨k.val, by omega⟩
def hi (k : Fin 4096) : Fin 8192 := ⟨4096 + k.val, by omega⟩

/-- A sum over all neighbours, split at the middle. -/
theorem sum_halves (f : Fin 8192 → EReal) :
    ∑ j : Fin 8192, f j = (∑ k : Fin 4096, f (lo k)) + ∑ k : Fin 4096, f (hi k) :=
  Fin.sum_univ_add (fun i : Fin (4096 + 4096) => f i)

/-- The weighted message sum, accumulated over the two halves from zero. -/
theorem acc_halves (x : M 8192 128) (adj : Z 8192 8192) (w : M 128 128) (b : V 128) (i : Fin 8192) (c : Fin 128) :
    (0 + ∑ k : Fin 4096, adjf adj i (lo k) * msg x w b (lo k) c) + ∑ k : Fin 4096, adjf adj i (hi k) * msg x w b (hi k) c
      = acc x adj w b i c := by
  unfold acc; rw [sum_halves, zero_add]

/-- The degree, accumulated over the two halves from zero. -/
theorem deg_halves (adj : Z 8192 8192) (i : Fin 8192) :
    (0 + ∑ k : Fin 4096, adjf adj i (lo k)) + ∑ k : Fin 4096, adjf adj i (hi k) = deg adj i := by
  unfold deg; rw [sum_halves, zero_add]

end Cert.Spec

end
-- ==== Proof.KI.Value1.lean ====
/-
  The result array. Point t = 2 i + k of the aggregation kernel (row tile i, reduction tile k) reads rows
  1024 i … of the adjacency matrix at columns 4096 k …, rows 4096 k … of the messages, and rows 1024 i … of the node
  features. After the odd point 2 i + 1 the two accumulators hold, for each row r of the tile, the weighted message
  sum and the degree over ALL 8192 neighbours (the first half added from zero at the even point, the second at the odd
  one), and the output block written back there holds the recurrent unit's update of rows 1024 i … . The eight row
  tiles tile the result array.
-/
import proofs.«133597_j88648124989935_1_alg».proof.Proof.KI.Value0
import proofs.«133597_j88648124989935_1_alg».proof.Proof.Math

set_option maxRecDepth 16384

noncomputable section

open scoped BigOperators

namespace Cert.KernelIdeal.Val

open Cert.KernelIdeal Cert.KernelIdeal.Gen Cert.KernelIdeal.Frm Cert.KernelValue
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The updated features of all nodes, as contents of the result array. -/
def Gout (c : Dev nD) : Buf (Elt Ideal) ((c : Thread nD τ).loc main_v1) :=
  fun j => Cert.Spec.G (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) (j 0) (j 1)

/-! ## What the aggregation kernel finds in its arrays -/

theorem V2_arg0 (c : Dev nD) : V2 m ρ c main_arg0 = m ((c : Thread nD τ).loc main_arg0) :=
  (W2_arr m ρ c 0).trans (((dat0 (V0 m ρ) c).arrAt_in 0 rfl _).trans (A_eq0 (V0 m ρ) c 0))
theorem V2_arg1 (c : Dev nD) : V2 m ρ c main_arg1 = m ((c : Thread nD τ).loc main_arg1) := W2_of_ne m ρ c main_arg1 (by decide)
theorem V2_arg4 (c : Dev nD) : V2 m ρ c main_arg4 = m ((c : Thread nD τ).loc main_arg4) := W2_of_ne m ρ c main_arg4 (by decide)
theorem V2_arg5 (c : Dev nD) : V2 m ρ c main_arg5 = m ((c : Thread nD τ).loc main_arg5) := W2_of_ne m ρ c main_arg5 (by decide)
theorem V2_arg6 (c : Dev nD) : V2 m ρ c main_arg6 = m ((c : Thread nD τ).loc main_arg6) := W2_of_ne m ρ c main_arg6 (by decide)
theorem V2_arg7 (c : Dev nD) : V2 m ρ c main_arg7 = m ((c : Thread nD τ).loc main_arg7) := W2_of_ne m ρ c main_arg7 (by decide)
/-- The message array it reads holds every node's message. -/
theorem V2_v0 (c : Dev nD) : V2 m ρ c main_v0 = Gmsg m c := (V2_main_v0 m ρ c).trans (final0 m ρ c)

/-! ## One entry of the block stored at an odd point -/

/-- The body's arithmetic at an odd point, on blocks that are: row r of the adjacency matrix at the second half of
    the columns (and, at the even point before, at the first half), the messages of the second (first) half of the
    nodes, row r of the features, the whole weights and biases — is the updated feature of node r. The two
    accumulations from zero are the whole sums. -/
theorem gnn_block (a a' : Vec Ideal S1024x4096 .i32) (ms ms' : Vec Ideal S4096x128 .bf16) (nf : Vec Ideal S1024x128 .f32)
    (wih whh : Vec Ideal S384x128 .f32) (bih bhh : Vec Ideal S384 .f32)
    (X : Cert.Spec.M 8192 128) (ADJ : Cert.Spec.Z 8192 8192) (Wm : Cert.Spec.M 128 128) (Bm : Cert.Spec.V 128)
    (r : Fin 8192) (p : Fin 1024) (e : Fin 128)
    (ha' : ∀ k : Fin 4096, a' (ix2 p k) = ADJ (ix2 r (Cert.Spec.lo k)))
    (ha : ∀ k : Fin 4096, a (ix2 p k) = ADJ (ix2 r (Cert.Spec.hi k)))
    (hm' : ∀ (k : Fin 4096) (q : Fin 128), ms' (ix2 k q) = Cert.Spec.msg X Wm Bm (Cert.Spec.lo k) q)
    (hm : ∀ (k : Fin 4096) (q : Fin 128), ms (ix2 k q) = Cert.Spec.msg X Wm Bm (Cert.Spec.hi k) q)
    (hnf : ∀ q : Fin 128, nf (ix2 p q) = X (ix2 r q)) :
    k1_pay5 (F := Ideal) (k1_pay4 a (k1_pay4 a' (k1_pay2 (F := Ideal)))) (k1_pay3 a ms (k1_pay3 a' ms' (k1_pay1 (F := Ideal)))) nf wih bih whh bhh (ix2 p e)
      = Cert.Spec.G X ADJ Wm Bm wih whh bih bhh r e := by
  rw [pay_out]
  unfold Cert.Spec.G
  have hagg : (fun q : Fin 128 => Ideal.div (k1_pay3 (F := Ideal) a ms (k1_pay3 a' ms' (k1_pay1 (F := Ideal))) (ix2 p q))
      (max (k1_pay4 (F := Ideal) a (k1_pay4 a' (k1_pay2 (F := Ideal))) (ix2 p (0 : Fin 1))) Cert.Spec.one)) = fun q => Cert.Spec.agg X ADJ Wm Bm r q := by
    funext q
    unfold Cert.Spec.agg
    rw [pay_acc, pay_acc, pay_acc0, pay_deg, pay_deg, pay_deg0]
    simp only [ha, ha', hm, hm']
    rw [← Cert.Spec.acc_halves, ← Cert.Spec.deg_halves]
    rfl
  rw [hagg, show (fun q : Fin 128 => nf (ix2 p q)) = fun q => X (ix2 r q) from funext hnf]

/-! ## The printed index maps, decided over the grid -/

theorem idx1 : ∀ t : Fin cfg1.N, win1_0.index t (0 : Fin 2) = t.val / 2 ∧ win1_0.index t (1 : Fin 2) = t.val % 2
    ∧ win1_1.index t (0 : Fin 2) = t.val % 2 ∧ win1_1.index t (1 : Fin 2) = 0
    ∧ win1_2.index t (0 : Fin 2) = t.val / 2 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0 ∧ win1_6.index t (0 : Fin 1) = 0
    ∧ win1_7.index t (0 : Fin 2) = t.val / 2 ∧ win1_7.index t (1 : Fin 2) = 0 :=
  (by decide +kernel : ∀ t : Fin grid1.N, _)

/-! ## The windows' blocks, read where the index maps say (for any contents V of the arrays) -/

section Blocks
variable (V : (c : Dev nD) → (b : Ref sig .tc) → Buf (Elt Ideal) ((c : Thread nD τ).loc b))

theorem blk_adj (c : Dev nD) (t : Fin cfg1.N) (p : Fin 1024) (k : Fin 4096) (r : Fin 8192) (j : Fin 8192)
    (hr : r.val = 1024 * (t.val / 2) + p.val) (hj : j.val = 4096 * (t.val % 2) + k.val) :
    iblk1 V c 0 t (ix2 p k) = V c main_arg1 (ix2 r j) := by
  obtain ⟨e0, e1, -⟩ := idx1 t
  show V c main_arg1 (((cfg1.win 0).blk t).view.emb (ix2 p k)) = V c main_arg1 (ix2 r j)
  refine congrArg (V c main_arg1) ?_
  funext a; apply Fin.ext
  match a with
  | ⟨0, _⟩ => show win1_0.index t (0 : Fin 2) * 1024 + 1 * p.val = r.val; omega
  | ⟨1, _⟩ => show win1_0.index t (1 : Fin 2) * 4096 + 1 * k.val = j.val; omega

theorem blk_msg (c : Dev nD) (t : Fin cfg1.N) (k : Fin 4096) (q : Fin 128) (j : Fin 8192)
    (hj : j.val = 4096 * (t.val % 2) + k.val) :
    iblk1 V c 1 t (ix2 k q) = V c main_v0 (ix2 j q) := by
  obtain ⟨-, -, e2, e3, -⟩ := idx1 t
  show V c main_v0 (((cfg1.win 1).blk t).view.emb (ix2 k q)) = V c main_v0 (ix2 j q)
  refine congrArg (V c main_v0) ?_
  funext a; apply Fin.ext
  match a with
  | ⟨0, _⟩ => show win1_1.index t (0 : Fin 2) * 4096 + 1 * k.val = j.val; omega
  | ⟨1, _⟩ => show win1_1.index t (1 : Fin 2) * 128 + 1 * q.val = q.val; omega

theorem blk_nf (c : Dev nD) (t : Fin cfg1.N) (p : Fin 1024) (q : Fin 128) (r : Fin 8192)
    (hr : r.val = 1024 * (t.val / 2) + p.val) :
    iblk1 V c 2 t (ix2 p q) = V c main_arg0 (ix2 r q) := by
  obtain ⟨-, -, -, -, e4, e5, -⟩ := idx1 t
  show V c main_arg0 (((cfg1.win 2).blk t).view.emb (ix2 p q)) = V c main_arg0 (ix2 r q)
  refine congrArg (V c main_arg0) ?_
  funext a; apply Fin.ext
  match a with
  | ⟨0, _⟩ => show win1_2.index t (0 : Fin 2) * 1024 + 1 * p.val = r.val; omega
  | ⟨1, _⟩ => show win1_2.index t (1 : Fin 2) * 128 + 1 * q.val = q.val; omega

theorem blk_wih (c : Dev nD) (t : Fin cfg1.N) : (iblk1 V c 3 t : Vec Ideal S384x128 .f32) = V c main_arg4 := by
  obtain ⟨-, -, -, -, -, -, e6, e7, -⟩ := idx1 t
  funext y
  show V c main_arg4 (((cfg1.win 3).blk t).view.emb y) = V c main_arg4 y
  refine congrArg (V c main_arg4) ?_
  funext a; apply Fin.ext
  match a with
  | ⟨0, _⟩ => show win1_3.index t (0 : Fin 2) * 384 + 1 * (y 0).val = (y 0).val; omega
  | ⟨1, _⟩ => show win1_3.index t (1 : Fin 2) * 128 + 1 * (y 1).val = (y 1).val; omega

theorem blk_whh (c : Dev nD) (t : Fin cfg1.N) : (iblk1 V c 4 t : Vec Ideal S384x128 .f32) = V c main_arg5 := by
  obtain ⟨-, -, -, -, -, -, -, -, e8, e9, -⟩ := idx1 t
  funext y
  show V c main_arg5 (((cfg1.win 4).blk t).view.emb y) = V c main_arg5 y
  refine congrArg (V c main_arg5) ?_
  funext a; apply Fin.ext
  match a with
  | ⟨0, _⟩ => show win1_4.index t (0 : Fin 2) * 384 + 1 * (y 0).val = (y 0).val; omega
  | ⟨1, _⟩ => show win1_4.index t (1 : Fin 2) * 128 + 1 * (y 1).val = (y 1).val; omega

theorem blk_bih (c : Dev nD) (t : Fin cfg1.N) : (iblk1 V c 5 t : Vec Ideal S384 .f32) = V c main_arg6 := by
  obtain ⟨-, -, -, -, -, -, -, -, -, -, e10, -⟩ := idx1 t
  funext y
  show V c main_arg6 (((cfg1.win 5).blk t).view.emb y) = V c main_arg6 y
  refine congrArg (V c main_arg6) ?_
  funext a; apply Fin.ext
  match a with
  | ⟨0, _⟩ => show win1_5.index t (0 : Fin 1) * 384 + 1 * (y 0).val = (y 0).val; omega

theorem blk_bhh (c : Dev nD) (t : Fin cfg1.N) : (iblk1 V c 6 t : Vec Ideal S384 .f32) = V c main_arg7 := by
  obtain ⟨-, -, -, -, -, -, -, -, -, -, -, e11, -⟩ := idx1 t
  funext y
  show V c main_arg7 (((cfg1.win 6).blk t).view.emb y) = V c main_arg7 y
  refine congrArg (V c main_arg7) ?_
  funext a; apply Fin.ext
  match a with
  | ⟨0, _⟩ => show win1_6.index t (0 : Fin 1) * 384 + 1 * (y 0).val = (y 0).val; omega

/-- What the output's staging buffer holds after an odd point: the recurrent unit's update from the accumulators'
    two-step values — this point's contribution added to the even point's, which was added to zero. -/
theorem outs_odd (c : Dev nD) (t : Fin cfg1.N) (h1 : t.val % 2 = 1) (hlt : t.val - 1 < cfg1.N) :
    (outsAt1 V c t.val t.isLt).1
      = k1_pay5 (k1_pay4 (iblk1 V c 0 t) (k1_pay4 (iblk1 V c 0 ⟨t.val - 1, hlt⟩) (k1_pay2 (F := Ideal))))
          (k1_pay3 (iblk1 V c 0 t) (iblk1 V c 1 t) (k1_pay3 (iblk1 V c 0 ⟨t.val - 1, hlt⟩) (iblk1 V c 1 ⟨t.val - 1, hlt⟩) (k1_pay1 (F := Ideal))))
          (iblk1 V c 2 t) (iblk1 V c 3 t) (iblk1 V c 5 t) (iblk1 V c 4 t) (iblk1 V c 6 t) := by
  have h0 : ¬t.val % 2 = 0 := by omega
  have h0' : (⟨t.val - 1, hlt⟩ : Fin cfg1.N).val % 2 = 0 := by dsimp only; omega
  have h1' : ¬(⟨t.val - 1, hlt⟩ : Fin cfg1.N).val % 2 = 1 := by dsimp only; omega
  have e : outsAt1 V c (t.val - 1) (Nat.lt_of_le_of_lt (Nat.sub_le _ _) t.isLt) = _ := outsAt1_A V c ⟨t.val - 1, hlt⟩ h0' h1'
  rw [outsAt1_C V c t h0 h1]
  dsimp only
  rw [out_C_7, e]
  dsimp only
  rw [sout_A_0, sout_A_1]

end Blocks

/-! ## The result array -/

/-- What an odd point writes back is its row tile of the updated features. -/
theorem flushed1_eq (c : Dev nD) (t : Fin cfg1.N) (hf : (cfg1.win 7).flush t = true) :
    (dat1 (V2 m ρ) c).flushed 7 t = ((cfg1.win 7).blk t).view.read (Elt Ideal) (Gout m c) := by
  have h1 : t.val % 2 = 1 := (flush1_7 t).mp hf
  have hN : t.val < 16 := lt_of_lt_of_eq t.isLt N_1
  have hlt : t.val - 1 < cfg1.N := Nat.lt_of_le_of_lt (Nat.sub_le _ _) t.isLt
  show (cfg1.win 7).cut (grid1.coords t) ((dat1 (V2 m ρ) c).after 7 t) = _
  rw [after1_7, outs_odd (V2 m ρ) c t h1 hlt]
  obtain ⟨-, -, -, -, -, -, -, -, -, -, -, -, e12, e13⟩ := idx1 t
  funext j
  obtain ⟨p, e, rfl⟩ : ∃ (p : Fin 1024) (e : Fin 128), j = ix2 p e := ⟨j 0, j 1, eq_ix2 j⟩
  have hp : p.val < 1024 := p.isLt
  have he : e.val < 128 := e.isLt
  have hr : (((cfg1.win 7).blk t).view.emb (ix2 p e)) = ix2 (⟨1024 * (t.val / 2) + p.val, by omega⟩ : Fin 8192) e := by
    funext a; apply Fin.ext
    match a with
    | ⟨0, _⟩ => show win1_7.index t (0 : Fin 2) * 1024 + 1 * p.val = 1024 * (t.val / 2) + p.val; omega
    | ⟨1, _⟩ => show win1_7.index t (1 : Fin 2) * 128 + 1 * e.val = e.val; omega
  show k1_pay5 (F := Ideal) _ _ _ _ _ _ _ (ix2 p e) = Gout m c (((cfg1.win 7).blk t).view.emb (ix2 p e))
  rw [hr, blk_wih, blk_whh, blk_bih, blk_bhh, V2_arg4, V2_arg5, V2_arg6, V2_arg7]
  refine gnn_block _ _ _ _ _ _ _ _ _ (m ((c : Thread nD τ).loc main_arg0)) (m ((c : Thread nD τ).loc main_arg1)) (m ((c : Thread nD τ).loc main_arg2)) (m ((c : Thread nD τ).loc main_arg3))
    ⟨1024 * (t.val / 2) + p.val, by omega⟩ p e ?_ ?_ ?_ ?_ ?_
  · intro k
    have hk : k.val < 4096 := k.isLt
    rw [blk_adj (V2 m ρ) c ⟨t.val - 1, hlt⟩ p k ⟨1024 * (t.val / 2) + p.val, by omega⟩ (Cert.Spec.lo k) (by dsimp only; omega) (by unfold Cert.Spec.lo; dsimp only; omega), V2_arg1]
  · intro k
    have hk : k.val < 4096 := k.isLt
    rw [blk_adj (V2 m ρ) c t p k ⟨1024 * (t.val / 2) + p.val, by omega⟩ (Cert.Spec.hi k) (by dsimp only) (by unfold Cert.Spec.hi; dsimp only; omega), V2_arg1]
  · intro k q
    have hk : k.val < 4096 := k.isLt
    rw [blk_msg (V2 m ρ) c ⟨t.val - 1, hlt⟩ k q (Cert.Spec.lo k) (by unfold Cert.Spec.lo; dsimp only; omega), V2_v0]
    rfl
  · intro k q
    have hk : k.val < 4096 := k.isLt
    rw [blk_msg (V2 m ρ) c t k q (Cert.Spec.hi k) (by unfold Cert.Spec.hi; dsimp only; omega), V2_v0]
    rfl
  · intro q
    rw [blk_nf (V2 m ρ) c t p q ⟨1024 * (t.val / 2) + p.val, by omega⟩ (by dsimp only), V2_arg0]

/-- An index of the result array is in point t's block iff each coordinate is in the block's range on its axis. -/
theorem mem_blk1 (t : Fin cfg1.N) (i : S8192x128.Idx) :
    i ∈ ((cfg1.win 7).blk t).view.set ↔ ∀ a : Fin 2, win1_7.index t a * S1024x128.size a ≤ (i a).val ∧ (i a).val < win1_7.index t a * S1024x128.size a + S1024x128.size a := by
  show i ∈ ((View.whole main_v1).slice (win1_7.rect t)).set ↔ _
  rw [View.set_slice_whole, Rect.mem_set_unit]
  exact Iff.rfl

/-- The result array after the run holds every node's updated features: row r is written back by the odd point of
    row tile r / 1024. -/
theorem final1 (c : Dev nD) : (dat1 (V2 m ρ) c).arrAt 7 cfg1.N = Gout m c :=
  (dat1 (V2 m ρ) c).arrAt_eq_of_cover 7 (Gout m c) (fun t hf => flushed1_eq m ρ c t hf) fun i => by
    have hi0 : (i 0).val < 8192 := (i 0).isLt
    have hi1 : (i 1).val < 128 := (i 1).isLt
    have hlt : 2 * ((i 0).val / 1024) + 1 < cfg1.N := by rw [show cfg1.N = 16 from N_1]; omega
    refine ⟨⟨2 * ((i 0).val / 1024) + 1, hlt⟩, (flush1_7 _).mpr (by dsimp only; omega), ?_⟩
    rw [mem_blk1]
    obtain ⟨-, -, -, -, -, -, -, -, -, -, -, -, e12, e13⟩ := idx1 ⟨2 * ((i 0).val / 1024) + 1, hlt⟩
    intro a
    match a with
    | ⟨0, _⟩ => show win1_7.index _ (0 : Fin 2) * 1024 ≤ (i 0).val ∧ (i 0).val < win1_7.index _ (0 : Fin 2) * 1024 + 1024
                rw [e12]; dsimp only; omega
    | ⟨1, _⟩ => show win1_7.index _ (1 : Fin 2) * 128 ≤ (i 1).val ∧ (i 1).val < win1_7.index _ (1 : Fin 2) * 128 + 128
                rw [e13]; omega

/-- THE RUN, READ: every fair execution of the idealized kernel program terminates with the result array holding the
    updated features of every node and the arguments unchanged. -/
theorem run : θ_run defs (onTc (τ := τ) (main (F := Ideal))) ⟨m, fun _ => 0, ρ⟩ (fun r => ∀ c : Dev nD,
      r.2.mem ((c.tc : Thread nD τ).loc main_v1) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (final1 m ρ c), (h c).2⟩) (run_all m ρ)

end Cert.KernelIdeal.Val

end
-- ==== Proof.RefValue.lean ====
/-
  The reference program's result, read index by index, is the specification G.

  The program is read one operation at a time from the generated reading lemmas: each stage below states the value
  of one intermediate array at an index built from literal coordinates, and identifies it with the matching
  quantity of the specification (messages, degree, mean message, gate pre-activations, gated recurrent unit).
-/
import proofs.«133597_j88648124989935_1_alg».proof.Proof.Gen.ReferenceIdeal.Read
import proofs.«133597_j88648124989935_1_alg».proof.Proof.Spec
import Idealize.ShloMosaic.Lib.IdealHost

noncomputable section

open scoped BigOperators

namespace Cert.RefValue

open Cert.ReferenceIdeal Cert.ReferenceIdeal.Read Idealize.ShloMosaic Idealize.ShloMosaic.ValueIdx

/-- The literal one is the extended real one. -/
theorem one_eq : Cert.Spec.one = 1 := by
  unfold Cert.Spec.one
  exact Ideal.ofBits_one_f32

/-! ## Messages -/

section Messages
variable (x0 : (⟨S8192x128, .f32⟩ : BufTy).Contents (Elt Ideal)) (x2 : (⟨S128x128, .f32⟩ : BufTy).Contents (Elt Ideal))
  (x3 : (⟨S128, .f32⟩ : BufTy).Contents (Elt Ideal))

theorem lidx1 (j : Fin 8192) (c k : Fin 128) : lidx_main_v1 (ix2 j c) k = ix2 j k := by
  funext a; match a with | ⟨0, _⟩ => rfl | ⟨1, _⟩ => rfl

theorem ridx1 (j : Fin 8192) (c k : Fin 128) : idx_main_v0 (ridx_main_v1 (ix2 j c) k) = ix2 c k := by
  funext a; match a with | ⟨0, _⟩ => rfl | ⟨1, _⟩ => rfl

theorem bidx3 (j : Fin 8192) (c : Fin 128) : idx_main_v2 (idx_main_v3 (ix2 j c)) = ix1 c := by
  funext a; match a with | ⟨0, _⟩ => rfl

/-- The relu of the affine map: the message of node j, channel c. -/
theorem msg_eq (j : Fin 8192) (c : Fin 128) :
    val_main_v5 (F := Ideal) x0 x2 x3 (ix2 j c) = Cert.Spec.msg x0 x2 x3 j c := by
  rw [val_main_v5_apply, val_main_v4_apply, val_main_v1_apply, val_main_v3_apply, val_main_v2_apply,
    val_main_call0_v0_apply, val_main_call0_cst_apply, bidx3]
  unfold Cert.Spec.msg
  rw [Ideal.maximumf_def, Ideal.addf_def, Ideal.ofBits_def, Ideal.ofBits_zero_f32]
  congr 2
  refine Finset.sum_congr rfl fun k _ => ?_
  rw [val_main_v0_apply, lidx1, ridx1]

end Messages

/-! ## Degree and mean message -/

section Aggregate
variable (x0 : (⟨S8192x128, .f32⟩ : BufTy).Contents (Elt Ideal)) (x1 : (⟨S8192x8192, .i32⟩ : BufTy).Contents (Elt Ideal))
  (x2 : (⟨S128x128, .f32⟩ : BufTy).Contents (Elt Ideal)) (x3 : (⟨S128, .f32⟩ : BufTy).Contents (Elt Ideal))

theorem idx7 (i : Fin 8192) (z : Fin 1) (k : Fin 8192) : idx_main_v7 (idx_main_v8 (ix2 i z)) k = ix2 i k := by
  funext a; match a with | ⟨0, _⟩ => rfl | ⟨1, _⟩ => rfl

/-- The converted adjacency entry is the integer read signed. -/
theorem adj_eq (i j : Fin 8192) : val_main_v6 (F := Ideal) x1 (ix2 i j) = Cert.Spec.adjf x1 i j := by
  rw [val_main_v6_apply]; rfl

/-- The clipped row sum of the adjacency: the degree, at least one. -/
theorem deg_eq (i : Fin 8192) (z : Fin 1) :
    val_main_v9 (F := Ideal) x1 (ix2 i z) = max (Cert.Spec.deg x1 i) Cert.Spec.one := by
  rw [val_main_v9_apply, val_main_call1_v1_apply, val_main_call1_v0_apply, val_main_cst_0_apply, val_main_v8_apply,
    val_main_v7_apply, val_main_cst_apply, Ideal.maximumf_def, Ideal.ofBits_def, Ideal.ofBits_def,
    Ideal.ofBits_zero_f32, zero_add, max_comm]
  have h : ∀ k : Fin 8192, val_main_v6 (F := Ideal) x1 (idx_main_v7 (idx_main_v8 (ix2 i z)) k) = Cert.Spec.adjf x1 i k :=
    fun k => by rw [idx7, adj_eq]
  unfold Cert.Spec.deg Cert.Spec.one
  rw [Finset.sum_congr rfl fun k _ => h k]

theorem idx11 (i : Fin 8192) (c : Fin 128) : idx_main_v11 (ix2 i c) = ix2 i (0 : Fin 1) := by
  funext a; match a with | ⟨0, _⟩ => rfl | ⟨1, _⟩ => rfl

theorem lidx10 (i : Fin 8192) (c : Fin 128) (k : Fin 8192) : lidx_main_v10 (ix2 i c) k = ix2 i k := by
  funext a; match a with | ⟨0, _⟩ => rfl | ⟨1, _⟩ => rfl

theorem ridx10 (i : Fin 8192) (c : Fin 128) (k : Fin 8192) : ridx_main_v10 (ix2 i c) k = ix2 k c := by
  funext a; match a with | ⟨0, _⟩ => rfl | ⟨1, _⟩ => rfl

/-- The adjacency-weighted sum of the messages over the clipped degree: the mean message. -/
theorem agg_eq (i : Fin 8192) (c : Fin 128) :
    val_main_v12 (F := Ideal) x0 x1 x2 x3 (ix2 i c) = Cert.Spec.agg x0 x1 x2 x3 i c := by
  rw [val_main_v12_apply, val_main_v11_apply, idx11, deg_eq, val_main_v10_apply, Ideal.hostDivf_def]
  have h : ∀ k : Fin 8192, val_main_v6 (F := Ideal) x1 (lidx_main_v10 (ix2 i c) k) *
      val_main_v5 (F := Ideal) x0 x2 x3 (ridx_main_v10 (ix2 i c) k) = Cert.Spec.adjf x1 i k * Cert.Spec.msg x0 x2 x3 k c :=
    fun k => by rw [lidx10, ridx10, adj_eq, msg_eq]
  unfold Cert.Spec.agg Cert.Spec.acc
  rw [Finset.sum_congr rfl fun k _ => h k]

end Aggregate

/-! ## Gate pre-activations -/

section Gates
variable (x0 : (⟨S8192x128, .f32⟩ : BufTy).Contents (Elt Ideal)) (x1 : (⟨S8192x8192, .i32⟩ : BufTy).Contents (Elt Ideal))
  (x2 : (⟨S128x128, .f32⟩ : BufTy).Contents (Elt Ideal)) (x3 : (⟨S128, .f32⟩ : BufTy).Contents (Elt Ideal))
  (x4 x5 : (⟨S384x128, .f32⟩ : BufTy).Contents (Elt Ideal)) (x6 x7 : (⟨S384, .f32⟩ : BufTy).Contents (Elt Ideal))

theorem lidx14 (p : Fin 8192) (g : Fin 384) (k : Fin 128) : lidx_main_v14 (ix2 p g) k = ix2 p k := by
  funext a; match a with | ⟨0, _⟩ => rfl | ⟨1, _⟩ => rfl

theorem ridx14 (p : Fin 8192) (g : Fin 384) (k : Fin 128) : idx_main_v13 (ridx_main_v14 (ix2 p g) k) = ix2 g k := by
  funext a; match a with | ⟨0, _⟩ => rfl | ⟨1, _⟩ => rfl

theorem bidx16 (p : Fin 8192) (g : Fin 384) : idx_main_v15 (idx_main_v16 (ix2 p g)) = ix1 g := by
  funext a; match a with | ⟨0, _⟩ => rfl

theorem lidx19 (p : Fin 8192) (g : Fin 384) (k : Fin 128) : lidx_main_v19 (ix2 p g) k = ix2 p k := by
  funext a; match a with | ⟨0, _⟩ => rfl | ⟨1, _⟩ => rfl

theorem ridx19 (p : Fin 8192) (g : Fin 384) (k : Fin 128) : idx_main_v18 (ridx_main_v19 (ix2 p g) k) = ix2 g k := by
  funext a; match a with | ⟨0, _⟩ => rfl | ⟨1, _⟩ => rfl

theorem bidx21 (p : Fin 8192) (g : Fin 384) : idx_main_v20 (idx_main_v21 (ix2 p g)) = ix1 g := by
  funext a; match a with | ⟨0, _⟩ => rfl

/-- The input-side pre-activations: the affine map of the node's mean message. -/
theorem gi_eq (p : Fin 8192) (g : Fin 384) :
    val_main_v17 (F := Ideal) x0 x1 x2 x3 x4 x6 (ix2 p g)
      = Cert.Spec.gates (fun c => Cert.Spec.agg x0 x1 x2 x3 p c) x4 x6 g := by
  rw [val_main_v17_apply, val_main_v14_apply, val_main_v16_apply, val_main_v15_apply, bidx16, Ideal.addf_def]
  have h : ∀ k : Fin 128, val_main_v12 (F := Ideal) x0 x1 x2 x3 (lidx_main_v14 (ix2 p g) k) *
      val_main_v13 (F := Ideal) x4 (ridx_main_v14 (ix2 p g) k) = Cert.Spec.agg x0 x1 x2 x3 p k * x4 (ix2 g k) :=
    fun k => by rw [val_main_v13_apply, lidx14, ridx14, agg_eq]
  unfold Cert.Spec.gates
  rw [Finset.sum_congr rfl fun k _ => h k]

/-- The state-side pre-activations: the affine map of the node's old features. -/
theorem gh_eq (p : Fin 8192) (g : Fin 384) :
    val_main_v22 (F := Ideal) x0 x5 x7 (ix2 p g) = Cert.Spec.gates (fun c => x0 (ix2 p c)) x5 x7 g := by
  rw [val_main_v22_apply, val_main_v19_apply, val_main_v21_apply, val_main_v20_apply, bidx21, Ideal.addf_def]
  have h : ∀ k : Fin 128, x0 (lidx_main_v19 (ix2 p g) k) *
      val_main_v18 (F := Ideal) x5 (ridx_main_v19 (ix2 p g) k) = x0 (ix2 p k) * x5 (ix2 g k) :=
    fun k => by rw [val_main_v18_apply, lidx19, ridx19]
  unfold Cert.Spec.gates
  rw [Finset.sum_congr rfl fun k _ => h k]

/-! The three slices of the 384 pre-activations: channel e of slice number s sits in slot 128 s + e. -/

theorem sidx0 (p : Fin 8192) (e : Fin 128) : idx_main_v23 (ix2 p e) = ix2 p (Cert.Spec.g0 e) := by
  funext a; match a with | ⟨0, _⟩ => rfl | ⟨1, _⟩ => rfl

theorem sidx1 (p : Fin 8192) (e : Fin 128) : idx_main_v24 (ix2 p e) = ix2 p (Cert.Spec.g1 e) := by
  funext a; match a with | ⟨0, _⟩ => rfl | ⟨1, _⟩ => rfl

theorem sidx2 (p : Fin 8192) (e : Fin 128) : idx_main_v25 (ix2 p e) = ix2 p (Cert.Spec.g2 e) := by
  funext a; match a with | ⟨0, _⟩ => rfl | ⟨1, _⟩ => rfl

theorem tidx0 (p : Fin 8192) (e : Fin 128) : idx_main_v26 (ix2 p e) = ix2 p (Cert.Spec.g0 e) := by
  funext a; match a with | ⟨0, _⟩ => rfl | ⟨1, _⟩ => rfl

theorem tidx1 (p : Fin 8192) (e : Fin 128) : idx_main_v27 (ix2 p e) = ix2 p (Cert.Spec.g1 e) := by
  funext a; match a with | ⟨0, _⟩ => rfl | ⟨1, _⟩ => rfl

theorem tidx2 (p : Fin 8192) (e : Fin 128) : idx_main_v28 (ix2 p e) = ix2 p (Cert.Spec.g2 e) := by
  funext a; match a with | ⟨0, _⟩ => rfl | ⟨1, _⟩ => rfl

end Gates

/-! ## The gated recurrent unit -/

section Unit
variable (x0 : (⟨S8192x128, .f32⟩ : BufTy).Contents (Elt Ideal)) (x1 : (⟨S8192x8192, .i32⟩ : BufTy).Contents (Elt Ideal))
  (x2 : (⟨S128x128, .f32⟩ : BufTy).Contents (Elt Ideal)) (x3 : (⟨S128, .f32⟩ : BufTy).Contents (Elt Ideal))
  (x4 x5 : (⟨S384x128, .f32⟩ : BufTy).Contents (Elt Ideal)) (x6 x7 : (⟨S384, .f32⟩ : BufTy).Contents (Elt Ideal))

/-- The sigmoid spelt out as 1 / (1 + exp (-t)), with the literal one, is the logistic function. -/
theorem sigmoid_eq (t : EReal) :
    Ideal.div (Ideal.ofBits .f32 0x3F800000#32) (Ideal.ofBits .f32 0x3F800000#32 + Ideal.exp (-t)) = Ideal.logistic t := by
  rw [Ideal.ofBits_one_f32]
  rfl

/-- The reset gate: the logistic function of the summed first-slot pre-activations. -/
theorem r_eq (p : Fin 8192) (e : Fin 128) :
    val_main_v35 (F := Ideal) x0 x1 x2 x3 x4 x5 x6 x7 (ix2 p e)
      = Ideal.logistic (Cert.Spec.gates (fun c => Cert.Spec.agg x0 x1 x2 x3 p c) x4 x6 (Cert.Spec.g0 e)
          + Cert.Spec.gates (fun c => x0 (ix2 p c)) x5 x7 (Cert.Spec.g0 e)) := by
  rw [val_main_v35_apply, val_main_v34_apply, val_main_cst_2_apply, val_main_v33_apply, val_main_v32_apply,
    val_main_cst_1_apply, val_main_v31_apply, val_main_v30_apply, val_main_v29_apply, val_main_v23_apply,
    val_main_v26_apply, sidx0, tidx0, gi_eq, gh_eq]
  simp only [Ideal.hostDivf_def, Ideal.addf_def, Ideal.hostUnary_exp_def, Ideal.hostNegf_def, Ideal.negf_def,
    Ideal.ofBits_def]
  exact sigmoid_eq _

/-- The update gate: the logistic function of the summed second-slot pre-activations. -/
theorem z_eq (p : Fin 8192) (e : Fin 128) :
    val_main_v42 (F := Ideal) x0 x1 x2 x3 x4 x5 x6 x7 (ix2 p e)
      = Ideal.logistic (Cert.Spec.gates (fun c => Cert.Spec.agg x0 x1 x2 x3 p c) x4 x6 (Cert.Spec.g1 e)
          + Cert.Spec.gates (fun c => x0 (ix2 p c)) x5 x7 (Cert.Spec.g1 e)) := by
  rw [val_main_v42_apply, val_main_v41_apply, val_main_cst_4_apply, val_main_v40_apply, val_main_v39_apply,
    val_main_cst_3_apply, val_main_v38_apply, val_main_v37_apply, val_main_v36_apply, val_main_v24_apply,
    val_main_v27_apply, sidx1, tidx1, gi_eq, gh_eq]
  simp only [Ideal.hostDivf_def, Ideal.addf_def, Ideal.hostUnary_exp_def, Ideal.hostNegf_def, Ideal.negf_def,
    Ideal.ofBits_def]
  exact sigmoid_eq _

/-- The candidate: the hyperbolic tangent of the third-slot input pre-activation plus the reset gate times the
    third-slot state pre-activation. -/
theorem n_eq (p : Fin 8192) (e : Fin 128) :
    val_main_v45 (F := Ideal) x0 x1 x2 x3 x4 x5 x6 x7 (ix2 p e)
      = Ideal.tanh (Cert.Spec.gates (fun c => Cert.Spec.agg x0 x1 x2 x3 p c) x4 x6 (Cert.Spec.g2 e)
          + Ideal.logistic (Cert.Spec.gates (fun c => Cert.Spec.agg x0 x1 x2 x3 p c) x4 x6 (Cert.Spec.g0 e)
              + Cert.Spec.gates (fun c => x0 (ix2 p c)) x5 x7 (Cert.Spec.g0 e))
            * Cert.Spec.gates (fun c => x0 (ix2 p c)) x5 x7 (Cert.Spec.g2 e)) := by
  rw [val_main_v45_apply, val_main_v44_apply, val_main_v43_apply, val_main_v25_apply, val_main_v28_apply, sidx2, tidx2,
    gi_eq, gh_eq, r_eq]
  simp only [Ideal.hostUnary_tanh_def, Ideal.addf_def, Ideal.mulf_def]

/-- The reference program's result at node p, channel e, is the specification. -/
theorem ref_eq (x0 : (⟨S8192x128, .f32⟩ : BufTy).Contents (Elt Ideal)) (x1 : (⟨S8192x8192, .i32⟩ : BufTy).Contents (Elt Ideal))
    (x2 : (⟨S128x128, .f32⟩ : BufTy).Contents (Elt Ideal)) (x3 : (⟨S128, .f32⟩ : BufTy).Contents (Elt Ideal))
    (x4 x5 : (⟨S384x128, .f32⟩ : BufTy).Contents (Elt Ideal)) (x6 x7 : (⟨S384, .f32⟩ : BufTy).Contents (Elt Ideal))
    (p : Fin 8192) (e : Fin 128) :
    val_main_v50 (F := Ideal) x0 x1 x2 x3 x4 x5 x6 x7 (ix2 p e) = Cert.Spec.G x0 x1 x2 x3 x4 x5 x6 x7 p e := by
  rw [val_main_v50_apply, val_main_v48_apply, val_main_v49_apply, val_main_v47_apply, val_main_v46_apply,
    val_main_cst_5_apply, n_eq, z_eq]
  unfold Cert.Spec.G Cert.Spec.gru Cert.Spec.one
  simp only [Ideal.addf_def, Ideal.mulf_def, Ideal.subf_def, Ideal.ofBits_def]

end Unit

end Cert.RefValue

end
-- ==== Proof.lean ====
/-
  A graph layer with a gated recurrent update, computed by two kernels in a row, against its plain array formula.

  Every node j sends the message  relu (x j · w_msgᵀ + b_msg);  node i takes the adjacency-weighted sum of the messages
  of all 8192 nodes and divides it by its degree (the sum of its adjacency row) clipped below at one; a gated recurrent
  unit updates the node's features from that mean (as input) and the old features (as state): with reset gate r, update
  gate z and candidate n,  new = (1 - z) · n + z · old.

  The first kernel writes the messages, four blocks of 2048 rows. The second runs over 8 row tiles times 2 halves of the
  neighbours: at the first half it zeroes two accumulators (the weighted sum, the degree) and adds the half's
  contribution, at the second half it adds the other half's and stores the unit's update of the row tile. On the
  extended reals the two halves' sums added from zero are the whole sums (addition is commutative and associative there;
  nothing is cancelled, so the inputs' finiteness is never used), the kernel's one-operation sigmoid is 1 / (1 + e⁻ˣ),
  a change of float format is the identity and the integer adjacency entries convert exactly: so the result array is,
  entry by entry, the reference's formula (Proof/Spec.lean states it; Proof/RefValue.lean reads it off the reference
  program, Proof/KI/Value1.lean off the kernel program's run).

  The frames (each program terminates, faults nowhere, leaves its arguments unchanged): for the two kernel programs
  the run of the two pipelines in a row (Proof/K/Run.lean at the machine's words, Proof/KI/Run.lean on the extended
  reals: the same text), for the reference its run with the result dropped. The idealization rewrote no operation.
-/
import proofs.«133597_j88648124989935_1_alg».proof.Defs
import proofs.«133597_j88648124989935_1_alg».proof.Proof.Gen.Kernel
import proofs.«133597_j88648124989935_1_alg».proof.Proof.Gen.KernelIdeal
import proofs.«133597_j88648124989935_1_alg».proof.Proof.Gen.ReferenceIdeal
import proofs.«133597_j88648124989935_1_alg».proof.Proof.Gen.ReferenceIdeal.Read
import proofs.«133597_j88648124989935_1_alg».proof.Proof.Gen.Pre_finite_inputs
import proofs.«133597_j88648124989935_1_alg».proof.Proof.K.Run
import proofs.«133597_j88648124989935_1_alg».proof.Proof.KI.Value1
import proofs.«133597_j88648124989935_1_alg».proof.Proof.RefValue

noncomputable section

namespace Cert.Proof

open Idealize.ShloMosaic Idealize.ShloMosaic.TcCoe Idealize.SL.Sem Idealize.ShloMosaic.ValueIdx

/-- The kernel program at the machine's words terminates and leaves its arguments unchanged. -/
theorem frame_k : Cert.frame_Kernel := fun m ρ _ => Cert.Kernel.Frm.frame m ρ

/-- So does its reading on the extended reals. -/
theorem frame_ki : Cert.frame_KernelIdeal := fun m ρ _ => Cert.KernelIdeal.Frm.frame m ρ

/-- And the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals, from memories agreeing on the arguments, both programs end with the result array at the
    updated features of every node: the kernel program by its run read back, the reference by its operations composed,
    each equal to the one formula entry by entry. -/
theorem algebraic : Cert.algebraic_KernelIdeal_ReferenceIdeal := by
  intro m ρ m' ρ' _ hagree
  refine ⟨fun c => Cert.KernelIdeal.Val.Gout m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq]
  obtain ⟨e0, e1, e2, e3, e4, e5, e6, e7⟩ := hagree c
  rw [e0, e1, e2, e3, e4, e5, e6, e7]
  funext j
  obtain ⟨p, e, rfl⟩ : ∃ (p : Fin 8192) (e : Fin 128), j = ix2 p e := ⟨j 0, j 1, eq_ix2 j⟩
  exact Cert.RefValue.ref_eq _ _ _ _ _ _ _ _ p e

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
